-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel

variable [Facts]

def fn {F : FTy → Type} [FloatOps F] (main_arg0 : FVec F S16x1024x512 .f32) (main_arg1 : FVec F S16x1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  main_v8
-- ==== Kernel.lean ====
abbrev S16x1024x512 : Shape := ⟨3, ![16, 1024, 512]⟩
abbrev S16x1024x2048 : Shape := ⟨3, ![16, 1024, 2048]⟩
abbrev S1x1024x512 : Shape := ⟨3, ![1, 1024, 512]⟩
abbrev S1x1024x2048 : Shape := ⟨3, ![1, 1024, 2048]⟩
abbrev S1024x512 : Shape := ⟨2, ![1024, 512]⟩
abbrev S1x256x512 : Shape := ⟨3, ![1, 256, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x2048, .f32⟩
  | .hbm, ⟨3, _⟩ => ⟨S16x1024x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x2048, .f32⟩
  | .local _ .vmem, ⟨11, _⟩ => ⟨S1x1024x2048, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x1024x512_S1x256x512_0_0_0 : ∀ a, (![0, 0, 0] : Fin 3 → Nat) a + S1x256x512.size a ≤ S1x1024x512.size a
  h_S1x256x512 : 0 < S1x256x512.numel
  shapeCasts_S1x256x512_S256x512 : S1x256x512.ShapeCasts S256x512
  reduces_S256x1024_S256 : S256x1024.Reduces [1] S256
  shapeCasts_S256_S256x1 : S256.ShapeCasts S256x1
  broadcasts_S256x1_S256x1024 : S256x1.Broadcasts S256x1024
  broadcasts_S256x1_S256x512 : S256x1.Broadcasts S256x512
  inb_S1x1024x2048_S1x256x512_0_0_0 : ∀ a, (![0, 0, 0] : Fin 3 → Nat) a + S1x256x512.size a ≤ S1x1024x2048.size a
  shapeCasts_S256x512_S1x256x512 : S256x512.ShapeCasts S1x256x512
  inb_S1x1024x2048_S1x256x512_0_0_512 : ∀ a, (![0, 0, 512] : Fin 3 → Nat) a + S1x256x512.size a ≤ S1x1024x2048.size a
  inb_S1x1024x2048_S1x256x512_0_0_1024 : ∀ a, (![0, 0, 1024] : Fin 3 → Nat) a + S1x256x512.size a ≤ S1x1024x2048.size a
  inb_S1x1024x2048_S1x256x512_0_0_1536 : ∀ a, (![0, 0, 1536] : Fin 3 → Nat) a + S1x256x512.size a ≤ S1x1024x2048.size a
  inb_S1x1024x512_S1x256x512_0_256_0 : ∀ a, (![0, 256, 0] : Fin 3 → Nat) a + S1x256x512.size a ≤ S1x1024x512.size a
  inb_S1x1024x2048_S1x256x512_0_256_0 : ∀ a, (![0, 256, 0] : Fin 3 → Nat) a + S1x256x512.size a ≤ S1x1024x2048.size a
  inb_S1x1024x2048_S1x256x512_0_256_512 : ∀ a, (![0, 256, 512] : Fin 3 → Nat) a + S1x256x512.size a ≤ S1x1024x2048.size a
  inb_S1x1024x2048_S1x256x512_0_256_1024 : ∀ a, (![0, 256, 1024] : Fin 3 → Nat) a + S1x256x512.size a ≤ S1x1024x2048.size a
  inb_S1x1024x2048_S1x256x512_0_256_1536 : ∀ a, (![0, 256, 1536] : Fin 3 → Nat) a + S1x256x512.size a ≤ S1x1024x2048.size a
  inb_S1x1024x512_S1x256x512_0_512_0 : ∀ a, (![0, 512, 0] : Fin 3 → Nat) a + S1x256x512.size a ≤ S1x1024x512.size a
  inb_S1x1024x2048_S1x256x512_0_512_0 : ∀ a, (![0, 512, 0] : Fin 3 → Nat) a + S1x256x512.size a ≤ S1x1024x2048.size a
  inb_S1x1024x2048_S1x256x512_0_512_512 : ∀ a, (![0, 512, 512] : Fin 3 → Nat) a + S1x256x512.size a ≤ S1x1024x2048.size a
  inb_S1x1024x2048_S1x256x512_0_512_1024 : ∀ a, (![0, 512, 1024] : Fin 3 → Nat) a + S1x256x512.size a ≤ S1x1024x2048.size a
  inb_S1x1024x2048_S1x256x512_0_512_1536 : ∀ a, (![0, 512, 1536] : Fin 3 → Nat) a + S1x256x512.size a ≤ S1x1024x2048.size a
  inb_S1x1024x512_S1x256x512_0_768_0 : ∀ a, (![0, 768, 0] : Fin 3 → Nat) a + S1x256x512.size a ≤ S1x1024x512.size a
  inb_S1x1024x2048_S1x256x512_0_768_0 : ∀ a, (![0, 768, 0] : Fin 3 → Nat) a + S1x256x512.size a ≤ S1x1024x2048.size a
  inb_S1x1024x2048_S1x256x512_0_768_512 : ∀ a, (![0, 768, 512] : Fin 3 → Nat) a + S1x256x512.size a ≤ S1x1024x2048.size a
  inb_S1x1024x2048_S1x256x512_0_768_1024 : ∀ a, (![0, 768, 1024] : Fin 3 → Nat) a + S1x256x512.size a ≤ S1x1024x2048.size a
  inb_S1x1024x2048_S1x256x512_0_768_1536 : ∀ a, (![0, 768, 1536] : Fin 3 → Nat) a + S1x256x512.size a ≤ S1x1024x2048.size a
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S16x1024x2048.size a
  hwx0_2 : ∀ i : grid0.Coords, EltTy.bits .f32 = 32 ∨ (Rect.block (s := S16x1024x2048) S1x1024x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x1024x512.size a
  hwx1_0 : ∀ i : grid1.Coords, EltTy.bits .f32 = 32 ∨ (Rect.block (s := S16x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S16x1024x512.size a
  hwx1_1 : ∀ i : grid1.Coords, EltTy.bits .f32 = 32 ∨ (Rect.block (s := S16x1024x512) S1x1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S16x1024x2048.size a
  hwx1_2 : ∀ i : grid1.Coords, EltTy.bits .f32 = 32 ∨ (Rect.block (s := S16x1024x2048) S1x1024x2048.size (cc1_transform_2 i) (hinb1_2 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x1024x512 : Shape := ⟨3, ![16, 1024, 512]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩
abbrev S16x1024x2048 : Shape := ⟨3, ![16, 1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1024x1, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S16x1x1024, .f32⟩
  | .hbm, ⟨23, _⟩ => ⟨S16x1024x1024, .f32⟩
  | .hbm, ⟨24, _⟩ => ⟨S16x1024x1024, .f32⟩
  | .hbm, ⟨25, _⟩ => ⟨S16x1024x1024, .f32⟩
  | .hbm, ⟨26, _⟩ => ⟨S_, .f32⟩
  | .hbm, ⟨27, _⟩ => ⟨S16x1024, .f32⟩
  | .hbm, ⟨28, _⟩ => ⟨S16x1x1024, .f32⟩
  | .hbm, ⟨29, _⟩ => ⟨S16x1024x1024, .f32⟩
  | .hbm, ⟨30, _⟩ => ⟨S16x1024x1024, .f32⟩
  | .hbm, ⟨31, _⟩ => ⟨S16x1024x512, .f32⟩
  | .hbm, ⟨32, _⟩ => ⟨S16x1024x512, .f32⟩
  | .hbm, ⟨33, _⟩ => ⟨S16x1024x512, .f32⟩
  | .hbm, ⟨34, _⟩ => ⟨S16x1024x512, .f32⟩
  | .hbm, ⟨35, _⟩ => ⟨S16x1024x2048, .f32⟩
  | .hbm, ⟨36, _⟩ => ⟨S16x1024x512, .f32⟩
  | .hbm, ⟨37, _⟩ => ⟨S16x1024x512, .f32⟩
  | .hbm, ⟨38, _⟩ => ⟨S16x1024x2048, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  reducesTo_S16x1024x1024_S16x1024_d1 : S16x1024x1024.ReducesTo [1] S16x1024
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  concatenates_S16x1024x512_S16x1024x512_S16x1024x512_S16x1024x512_S16x1024x2048_d2 : Shape.Concatenates [S16x1024x512, S16x1024x512, S16x1024x512, S16x1024x512] S16x1024x2048 2
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]
  dot_S16x1024x1024_S16x1024x512_S16x1024x512_1_1_2_2_0_0_wf : DotDims.WF S16x1024x1024 S16x1024x512 S16x1024x512 [1] [1] [2] [2] [0] [0]

variable [Facts₀]

def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf
def dot_S16x1024x1024_S16x1024x512_S16x1024x512_1_1_2_2_0_0 : DotDims S16x1024x1024 S16x1024x512 S16x1024x512 where
  lhsContracting := [1]
  rhsContracting := [1]
  lhsNonContracting := [2]
  rhsNonContracting := [2]
  lhsBatch := [0]
  rhsBatch := [0]
  wf := dot_S16x1024x1024_S16x1024x512_S16x1024x512_1_1_2_2_0_0_wf

class Facts : Prop extends Facts₀ where

variable [Facts]
-- ==== Proof.LibAccumulateThenDivide.lean ====
/-
  Accumulate, then divide — against — normalise, then contract.

  A weighted mean can be computed in one streaming pass: add up the weighted terms and the weights side by side,
  tile by tile from zero, and divide the two totals at the end.  Or the weights can be normalised by their total
  first and the normalised weights contracted with the terms.  Over real weights and terms with a nonzero total
  the two agree on the extended reals (where the quotient by a nonzero real is the product with its inverse), whatever
  the tiling and the order in which the running sums were formed.  This file proves that law, the running sum as
  its start value plus a finite sum, and the coercion of a finite real sum into the extended reals.
-/
import Idealize.ShloMosaic.PureOps.Ideal
import Mathlib.Algebra.BigOperators.Fin
import Mathlib.Data.Fintype.BigOperators
import Mathlib.Logic.Equiv.Fin.Basic

noncomputable section

namespace Cert.LibAccumulateThenDivide

open Idealize.ShloMosaic

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running sum: from the start value z, one term added on the right per step. -/
def runSum {M : Type*} [AddCommMonoid M] (z : M) (g : ℕ → M) : ℕ → M
  | 0 => z
  | n + 1 => runSum z g n + g n

/-- After n steps the running sum is the start value plus the first n terms. -/
theorem runSum_eq {M : Type*} [AddCommMonoid M] (z : M) (g : ℕ → M) (n : ℕ) :
    runSum z g n = z + ∑ k ∈ Finset.range n, g k := by
  induction n with
  | zero => simp [runSum]
  | succ n ih => rw [runSum, ih, Finset.sum_range_succ, add_assoc]

/-- A sum over nb tiles of bs, tile by tile, is the sum over all nb * bs positions. -/
theorem sum_tiles {M : Type*} [AddCommMonoid M] {nb bs : ℕ} (f : Fin (nb * bs) → M) :
    ∑ n : Fin nb, ∑ jj : Fin bs, f ⟨n.val * bs + jj.val, by
        have h1 := n.isLt; have h2 := jj.isLt
        calc n.val * bs + jj.val < n.val * bs + bs := by omega
          _ = (n.val + 1) * bs := by ring
          _ ≤ nb * bs := Nat.mul_le_mul_right bs h1⟩ = ∑ j : Fin (nb * bs), f j := by
  rw [← Finset.sum_product', Finset.univ_product_univ]
  refine Fintype.sum_equiv finProdFinEquiv _ _ (fun p => ?_)
  obtain ⟨n, jj⟩ := p
  refine congrArg f (Fin.ext ?_)
  simp [finProdFinEquiv, Nat.mul_comm, Nat.add_comm]

/-- THE LAW over a finite set: for real weights a and real terms x whose weights' total is a nonzero real S,
    the quotient of the weighted total by S is the total of the terms weighted by a / S. -/
theorem div_sum_eq_sum_div {ι : Type*} (s : Finset ι) (a x : ι → EReal)
    (ha : ∀ j ∈ s, ∃ r : ℝ, a j = (r : EReal)) (hx : ∀ j ∈ s, ∃ r : ℝ, x j = (r : EReal))
    (S : ℝ) (hS : S ≠ 0) (hsum : ∑ j ∈ s, a j = (S : EReal)) :
    Ideal.div (∑ j ∈ s, a j * x j) (∑ j ∈ s, a j) = ∑ j ∈ s, Ideal.div (a j) (∑ j' ∈ s, a j') * x j := by
  have ha' : ∀ j ∈ s, a j = ((a j).toReal : EReal) := fun j hj => by
    obtain ⟨r, hr⟩ := ha j hj; rw [hr, EReal.toReal_coe]
  have hx' : ∀ j ∈ s, x j = ((x j).toReal : EReal) := fun j hj => by
    obtain ⟨r, hr⟩ := hx j hj; rw [hr, EReal.toReal_coe]
  rw [hsum, Ideal.div_coe hS]
  have hL : ∑ j ∈ s, a j * x j = ((∑ j ∈ s, (a j).toReal * (x j).toReal : ℝ) : EReal) := by
    rw [coe_sum]
    exact Finset.sum_congr rfl fun j hj => by rw [EReal.coe_mul, ← ha' j hj, ← hx' j hj]
  have hR : ∑ j ∈ s, Ideal.div (a j) (S : EReal) * x j
      = ((∑ j ∈ s, (a j).toReal * (1 / S) * (x j).toReal : ℝ) : EReal) := by
    rw [coe_sum]
    exact Finset.sum_congr rfl fun j hj => by
      rw [Ideal.div_coe hS, EReal.coe_mul, EReal.coe_mul, ← ha' j hj, ← hx' j hj]
  rw [hL, hR, ← EReal.coe_mul, Finset.sum_mul]
  exact congrArg _ (Finset.sum_congr rfl fun j _ => by ring)

/-- THE LAW, streamed: the two totals formed as running sums from zero over nb tiles of bs, divided at the end,
    against the weights normalised by their total (itself formed as zero plus the sum) and contracted. -/
theorem streamed_eq_normalised {nb bs : ℕ} (a x : Fin (nb * bs) → EReal)
    (ha : ∀ j, ∃ r : ℝ, a j = (r : EReal)) (hx : ∀ j, ∃ r : ℝ, x j = (r : EReal))
    (S : ℝ) (hS : S ≠ 0) (hsum : ∑ j, a j = (S : EReal))
    (num den : EReal)
    (hnum : num = 0 + ∑ j, a j * x j) (hden : den = 0 + ∑ j, a j) :
    Ideal.div num den = ∑ j, Ideal.div (a j) (0 + ∑ j', a j') * x j := by
  rw [hnum, hden, zero_add, zero_add]
  exact div_sum_eq_sum_div Finset.univ a x (fun j _ => ha j) (fun j _ => hx j) S hS hsum

end Cert.LibAccumulateThenDivide

end
-- ==== Proof.AttnSpec.lean ====
/-
  One direction of a two-way softmax attention, fused with its query row, on the extended reals.

  A query row q (512 features) meets 1024 key rows k, which are also the value rows:
    * scores q k c = ∑ e, q e * k c e;
    * pexp s c     = exp (s c - max s), the row of scores shifted by its largest entry and exponentiated;
    * the mixed row t, feature d, is the average of the entries k c d weighted by pexp s c. It can be formed in two
      orders: contract first and divide the total by the weights' total (mixK), or normalise the weights by their
      total first and contract afterwards (mixR);
    * the output row has 2048 entries in four bands of 512: q, t, q - t and q * t (band, outRow).
  outArr spreads this over 16 batches of 1024 query rows: entry (b, r, j) is the output row of query row (b, r) of Q
  against the key rows of batch b of K.

  The two orders agree when q and k hold real numbers: the scores are then real, their maximum over the nonempty row
  is real, every weight exp (s c - max s) is a positive real, so the weights' total is a nonzero real, and dividing a
  finite real sum by it is dividing each term (mixK_eq_mixR, outArr_mixK_eq_mixR). At an infinite entry the two orders
  can differ, which is why the entries are asked to be real.
-/
import Idealize.ShloMosaic.PureOps.Ideal
import Idealize.ShloMosaic.Lib.ValueIdx
import proofs.«110507_j24867860643935_2_alg».proof.Proof.LibAccumulateThenDivide

noncomputable section

open scoped BigOperators

namespace Cert.AttnSpec

open Idealize.ShloMosaic Idealize.ShloMosaic.ValueIdx

/-- The scores of a query row against every key row. -/
def scores (q : Fin 512 → EReal) (k : Fin 1024 → Fin 512 → EReal) (c : Fin 1024) : EReal :=
  ∑ e : Fin 512, q e * k c e

/-- A row of scores shifted by its largest entry, exponentiated. -/
def pexp (s : Fin 1024 → EReal) (c : Fin 1024) : EReal := Ideal.exp (s c - Finset.univ.sup s)

/-- The weighted average of v, contracting first and dividing by the weights' total afterwards. -/
def mixK (s v : Fin 1024 → EReal) : EReal := Ideal.div (∑ c : Fin 1024, pexp s c * v c) (∑ c : Fin 1024, pexp s c)

/-- The weighted average of v, normalising each weight by the total first and contracting afterwards. -/
def mixR (s v : Fin 1024 → EReal) : EReal :=
  ∑ c : Fin 1024, Ideal.div (pexp s c) (∑ c' : Fin 1024, pexp s c') * v c

/-- The four bands of an output row, by the band's number: the query entry, the mixed entry, their difference,
    their product. -/
def band (n : ℕ) (a t : EReal) : EReal := if n = 0 then a else if n = 1 then t else if n = 2 then a - t else a * t

theorem band_zero (a t : EReal) : band 0 a t = a := rfl
theorem band_one (a t : EReal) : band 1 a t = t := rfl
theorem band_two (a t : EReal) : band 2 a t = a - t := rfl
theorem band_three (a t : EReal) : band 3 a t = a * t := rfl

/-- The feature an output column belongs to. -/
def col (j : Fin 2048) : Fin 512 := ⟨j.val % 512, Nat.mod_lt _ (by norm_num)⟩

/-- The output row of a query row against the key rows, for either order of mixing. -/
def outRow (mixF : (Fin 1024 → EReal) → (Fin 1024 → EReal) → EReal) (q : Fin 512 → EReal)
    (k : Fin 1024 → Fin 512 → EReal) (j : Fin 2048) : EReal :=
  band (j.val / 512) (q (col j)) (mixF (scores q k) fun c => k c (col j))

/-- The whole output array: entry (b, r, j) is the output row of query row (b, r) against the key rows of batch b. -/
def outArr (mixF : (Fin 1024 → EReal) → (Fin 1024 → EReal) → EReal)
    (Q K : (⟨3, ![16, 1024, 512]⟩ : Shape).Idx → EReal) : (⟨3, ![16, 1024, 2048]⟩ : Shape).Idx → EReal := fun y =>
  outRow mixF (fun e => Q (ix3 ⟨(y 0).val, (y 0).isLt⟩ ⟨(y 1).val, (y 1).isLt⟩ e))
    (fun c e => K (ix3 ⟨(y 0).val, (y 0).isLt⟩ c e)) ⟨(y 2).val, (y 2).isLt⟩

/-- An output row read at column 512 * n + d: band n of the query's feature d and the mixed feature d. -/
theorem outRow_band (mixF : (Fin 1024 → EReal) → (Fin 1024 → EReal) → EReal) (q : Fin 512 → EReal)
    (k : Fin 1024 → Fin 512 → EReal) (n : ℕ) (d : Fin 512) (j : Fin 2048) (hj : j.val = 512 * n + d.val) :
    outRow mixF q k j = band n (q d) (mixF (scores q k) fun c => k c d) := by
  have h1 : j.val / 512 = n := by have := d.isLt; omega
  have h2 : col j = d := Fin.ext (by show j.val % 512 = d.val; have := d.isLt; omega)
  unfold outRow
  rw [h1, h2]

/-- The output array read at an index whose coordinates are (b, r, j). -/
theorem outArr_apply (mixF : (Fin 1024 → EReal) → (Fin 1024 → EReal) → EReal)
    (Q K : (⟨3, ![16, 1024, 512]⟩ : Shape).Idx → EReal) (y : (⟨3, ![16, 1024, 2048]⟩ : Shape).Idx)
    (b : Fin 16) (r : Fin 1024) (j : Fin 2048) (h0 : (y 0).val = b.val) (h1 : (y 1).val = r.val)
    (h2 : (y 2).val = j.val) :
    outArr mixF Q K y = outRow mixF (fun e => Q (ix3 b r e)) (fun c e => K (ix3 b c e)) j := by
  have e0 : (⟨(y 0).val, (y 0).isLt⟩ : Fin 16) = b := Fin.ext h0
  have e1 : (⟨(y 1).val, (y 1).isLt⟩ : Fin 1024) = r := Fin.ext h1
  have e2 : (⟨(y 2).val, (y 2).isLt⟩ : Fin 2048) = j := Fin.ext h2
  unfold outArr
  rw [e0, e1, e2]

/-! ## The two orders of mixing agree on real rows -/

/-- The scores of real rows are real. -/
theorem scores_real (q : Fin 512 → EReal) (k : Fin 1024 → Fin 512 → EReal) (hq : ∀ e, ∃ r : ℝ, q e = (r : EReal))
    (hk : ∀ c e, ∃ r : ℝ, k c e = (r : EReal)) (c : Fin 1024) : ∃ r : ℝ, scores q k c = (r : EReal) := by
  choose a ha using hq
  choose b hb using hk
  refine ⟨∑ e : Fin 512, a e * b c e, ?_⟩
  unfold scores
  rw [Cert.LibAccumulateThenDivide.coe_sum]
  exact Finset.sum_congr rfl fun e _ => by rw [ha e, hb c e, EReal.coe_mul]

/-- The largest of 1024 real scores is real. -/
theorem sup_real (s : Fin 1024 → EReal) (hs : ∀ c, ∃ r : ℝ, s c = (r : EReal)) :
    ∃ r : ℝ, Finset.univ.sup s = (r : EReal) := by
  obtain ⟨i, -, hi⟩ := Finset.exists_mem_eq_sup (Finset.univ : Finset (Fin 1024))
    ⟨⟨0, by norm_num⟩, Finset.mem_univ _⟩ s
  obtain ⟨r, hr⟩ := hs i
  exact ⟨r, hi.trans hr⟩

/-- THE LAW: over real scores and real values, dividing the contracted total by the weights' total is contracting with
    the normalised weights. -/
theorem mixK_eq_mixR (s v : Fin 1024 → EReal) (hs : ∀ c, ∃ r : ℝ, s c = (r : EReal))
    (hv : ∀ c, ∃ r : ℝ, v c = (r : EReal)) : mixK s v = mixR s v := by
  obtain ⟨M, hM⟩ := sup_real s hs
  choose a ha using hs
  have hp : ∀ c, pexp s c = ((Real.exp (a c - M) : ℝ) : EReal) := fun c => by
    unfold pexp
    rw [hM, ha c, ← EReal.coe_sub, Ideal.exp_coe]
  have hsum : ∑ c : Fin 1024, pexp s c = ((∑ c : Fin 1024, Real.exp (a c - M) : ℝ) : EReal) := by
    rw [Cert.LibAccumulateThenDivide.coe_sum]
    exact Finset.sum_congr rfl fun c _ => hp c
  have hpos : (0 : ℝ) < ∑ c : Fin 1024, Real.exp (a c - M) :=
    Finset.sum_pos (fun c _ => Real.exp_pos _) ⟨⟨0, by norm_num⟩, Finset.mem_univ _⟩
  unfold mixK mixR
  exact Cert.LibAccumulateThenDivide.div_sum_eq_sum_div Finset.univ (pexp s) v (fun c _ => ⟨_, hp c⟩)
    (fun c _ => hv c) _ (ne_of_gt hpos) hsum

/-- The output rows of the two orders agree on real rows. -/
theorem outRow_mixK_eq_mixR (q : Fin 512 → EReal) (k : Fin 1024 → Fin 512 → EReal)
    (hq : ∀ e, ∃ r : ℝ, q e = (r : EReal)) (hk : ∀ c e, ∃ r : ℝ, k c e = (r : EReal)) (j : Fin 2048) :
    outRow mixK q k j = outRow mixR q k j := by
  unfold outRow
  rw [mixK_eq_mixR _ _ (scores_real q k hq hk) fun c => hk c (col j)]

/-- The output arrays of the two orders agree on arrays of real numbers. -/
theorem outArr_mixK_eq_mixR (Q K : (⟨3, ![16, 1024, 512]⟩ : Shape).Idx → EReal)
    (hQ : ∀ i, ∃ r : ℝ, Q i = (r : EReal)) (hK : ∀ i, ∃ r : ℝ, K i = (r : EReal)) :
    outArr mixK Q K = outArr mixR Q K :=
  funext fun _ => outRow_mixK_eq_mixR _ _ (fun _ => hQ _) (fun _ _ => hK _) _

end Cert.AttnSpec

end
-- ==== Proof.LibFiniteInputs.lean ====
/-
  "Every entry is finite", read back at the ideal values.

  A precondition that an array holds finite numbers is printed as the reduction by "and", over every index and from the
  constant one, of the comparison |x| < +∞ of the array's entries against the broadcast f32 word of plus infinity. When
  that reduction (into the rank-zero shape) is one, every entry of the array is a real number:
    * a reduction by "and" into a single result that is one met a one at every index;
    * the comparison "ordered less than" is one only when the strict inequality holds;
    * an extended real whose absolute value max x (-x) lies strictly below the top element is neither infinity.
  Stated for an array of any shape; the f32 word 0x7F800000 is plus infinity.
-/
import Idealize.ShloMosaic.Lib.ReduceAll
import Idealize.ShloMosaic.Lib.ValueIdx
import Idealize.ShloMosaic.PureOps.Ideal

noncomputable section

namespace Cert.LibFiniteInputs

open Idealize.ShloMosaic

/-- The word 0x7F800000 (sign clear, exponent all ones, fraction zero) is plus infinity. -/
theorem ofBits_posInf : Ideal.ofBits .f32 0x7F800000#32 = (⊤ : EReal) := by
  simp [Ideal.ofBits, Ideal.ieee]

/-- An extended real whose absolute value compares strictly below plus infinity is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-- The rank-zero shape has one index. -/
instance : Subsingleton (⟨0, ![]⟩ : Shape).Idx := ⟨fun a b => funext fun d => d.elim0⟩

/-- One array's test: if the reduction by "and" of the comparisons |x| < +∞ is one, every entry is real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf a) (broadcastInDim s ![] hb (constant (F := Ideal) ⟨0, ![]⟩ .f32 0x7F800000#32)))
        (constantI ⟨0, ![]⟩ 1 1#1) hr hu ValueIdx.ix0 = 1#1) (i : s.Idx) :
    ∃ r : ℝ, a i = (r : EReal) :=
  real_of_abs_lt (a i) (Host.reduce_andi_all _ _ hr hu ValueIdx.ix0 h i)

end Cert.LibFiniteInputs

end
-- ==== Proof.FiniteIn.lean ====
/-
  From the precondition to real entries.

  The precondition computes, for each of the two argument arrays, whether every entry's absolute value lies strictly
  below plus infinity, and joins the two tests by "and". When the joined result is one, each test is one, and so every
  entry of each array is a real number (neither infinity).
-/
import proofs.«110507_j24867860643935_2_alg».proof.Pre_finite_inputs
import proofs.«110507_j24867860643935_2_alg».proof.Proof.Gen.Pre_finite_inputs
import proofs.«110507_j24867860643935_2_alg».proof.Proof.LibFiniteInputs
import Idealize.ShloMosaic.Lib.Affine
import Idealize.ShloMosaic.Lib.ValueIdx

noncomputable section

namespace Cert.FiniteIn

open Idealize.ShloMosaic

/-- Under the precondition both argument arrays hold real numbers only. -/
theorem reals_of_pre (A B : FVec Ideal Cert.Pre_finite_inputs.S16x1024x512 .f32)
    (h : Cert.Pre_finite_inputs.fn (F := Ideal) A B = fun _ => 1#1) :
    (∀ i, ∃ r : ℝ, A i = (r : EReal)) ∧ (∀ i, ∃ r : ℝ, B i = (r : EReal)) := by
  have h0 := congrFun h ValueIdx.ix0
  dsimp only [Cert.Pre_finite_inputs.fn] at h0
  obtain ⟨hA, hB⟩ := IntOp.andi_eq_one.mp h0
  exact ⟨fun i => Cert.LibFiniteInputs.real_of_all A _ _ _ hA i,
    fun i => Cert.LibFiniteInputs.real_of_all B _ _ _ hB i⟩

end Cert.FiniteIn

end
-- ==== Proof.KernelRun.lean ====
/-
  The idealized kernel's run with its two result arrays named.

  The program launches the same attention body twice: region 0 reads (A, B) and writes the first result, region 1
  reads (B, A) and writes the second. The buffer contents at the boundaries form a fold: W0 is the launch memory, W1
  is W0 with region 0's arrays at what its write-backs leave, W2 is W1 with region 1's arrays likewise. Every weakly
  fair execution ends with every unscoped buffer at W2. Read at the two result buffers and the two arguments:
    * the second result is region 1's output array after its last write-back, region 1 having been entered at W1;
    * the first result is not an array of region 1, so W2 keeps W1 there, which is region 0's output array after its
      last write-back, region 0 having been entered at the launch memory;
    * neither region writes an argument, so W1 (what region 1 finds) and W2 hold the launch contents there.
-/
import proofs.«110507_j24867860643935_2_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with both result buffers and both arguments at the
    last boundary's contents W2 (the arguments read back to the launch memory). -/
theorem run_W2 : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v0 (by decide)),
       h c _ (mem_uc main_v1 (by decide)),
       (h c _ (mem_uc main_arg0 (by decide))).trans (W2_main_arg0 m ρ c),
       (h c _ (mem_uc main_arg1 (by decide))).trans (W2_main_arg1 m ρ c)⟩)

/-- The second result at the last boundary is region 1's output array after its last write-back. -/
theorem W2_v1 (c : Dev nD) : W2 m ρ c (Proc.devRef .tc main_v1) = (dat1 (V1 m ρ) c).arrAt 2 cfg1.N :=
  W2_arr m ρ c 2

/-- The first result is no array of region 1: the last boundary keeps region 0's output array after its last
    write-back. -/
theorem W2_v0 (c : Dev nD) : W2 m ρ c (Proc.devRef .tc main_v0) = (dat0 (V0 m ρ) c).arrAt 2 cfg0.N :=
  (W2_of_ne m ρ c main_v0 (by decide)).trans (W1_arr m ρ c 2)

/-- Region 1 finds the first argument as launched. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))

/-- Region 1 finds the second argument as launched. -/
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

end Cert.KernelIdeal.Named

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«110507_j24867860643935_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.ChunkOps.lean ====
/-
  One 256-row chunk of the attention body, read at an index on the extended reals.

  The body holds the key block K (1024 rows of 512 features; its change of float format is the identity here) and, for
  each of four chunks of 256 query rows q, forms
    * the scores q · Kᵀ, a product into a zero accumulator contracting the feature axis of both operands;
    * each row's maximum over the 1024 keys (from minus infinity), subtracted from the row, and the exponential;
    * each row's total of those exponentials (from zero);
    * the exponentials times K, the plain product into a zero accumulator, divided by the row's total;
  and stores four pieces: the query rows, the mixed rows t, q - t and q * t.
  Read at row r and feature d, the mixed row is mixK of the row's scores against column d of K (tOf_apply), and
  the four pieces are the four bands (piece_apply).
-/
import proofs.«110507_j24867860643935_2_alg».proof.Proof.Gen.KernelIdeal
import proofs.«110507_j24867860643935_2_alg».proof.Proof.LibRowReduceProducts
import proofs.«110507_j24867860643935_2_alg».proof.Proof.LibKeepdimsCols
import proofs.«110507_j24867860643935_2_alg».proof.Proof.AttnSpec
import Idealize.ShloMosaic.Lib.Pipeline.Value
import Idealize.ShloMosaic.Lib.ValueIdx
import Idealize.ShloMosaic.PureOps.Ideal.Laws

set_option synthInstance.maxSize 4096

noncomputable section

open scoped BigOperators

namespace Cert.KernelIdeal.Chunk

open Cert.KernelIdeal Cert.KernelIdeal.Gen Cert.AttnSpec
open Idealize.ShloMosaic Idealize.ShloMosaic.ValueIdx

/-! ## The chunk's values -/

/-- The key block as the body holds it: the [1, 1024, 512] block viewed as 1024 rows. -/
def keysOf (K3 : Vec Ideal S1x1024x512 .f32) : FVec Ideal S1024x512 .bf16 :=
  truncf .bf16 (shapeCast S1024x512 K3 shapeCasts_S1x1024x512_S1024x512) bitsLt_bf16_f32

/-- A chunk of query rows: the [1, 256, 512] slice viewed as 256 rows. -/
def rowsOf (q3 : Vec Ideal S1x256x512 .f32) : FVec Ideal S256x512 .f32 :=
  shapeCast S256x512 q3 shapeCasts_S1x256x512_S256x512

/-- The scores of the chunk's rows against every key row. -/
def scoreOf (kb : FVec Ideal S1024x512 .bf16) (q : FVec Ideal S256x512 .f32) : FVec Ideal S256x1024 .f32 :=
  matmul dot_S256x512_S1024x512_S256x1024_1_1_0_0_n_n none (truncf .bf16 q bitsLt_bf16_f32) kb
    (constant S256x1024 .f32 0x00000000#32)

/-- Each row of scores less its maximum, exponentiated. -/
def expOf (s : FVec Ideal S256x1024 .f32) : FVec Ideal S256x1024 .f32 :=
  exp (subf s (broadcastTo S256x1024 (shapeCast S256x1
    (multiReduction .maximumf [1] S256 s 0xFF800000#32 reduces_S256x1024_S256 (.inl rfl) rfl)
    shapeCasts_S256_S256x1) broadcasts_S256x1_S256x1024))

/-- Each row's total, kept as a column. -/
def totalOf (p : FVec Ideal S256x1024 .f32) : FVec Ideal S256x1 .f32 :=
  shapeCast S256x1 (multiReduction .add [1] S256 p 0x00000000#32 reduces_S256x1024_S256 (.inl rfl) rfl)
    shapeCasts_S256_S256x1

/-- The weights contracted with the key rows, then each row divided by its total. -/
def mixOf (kb : FVec Ideal S1024x512 .bf16) (p : FVec Ideal S256x1024 .f32) (l : FVec Ideal S256x1 .f32) :
    FVec Ideal S256x512 .f32 :=
  divf (matmul dot_S256x1024_S1024x512_S256x512_1_0_0_1_n_n none (truncf .bf16 p bitsLt_bf16_f32) kb
    (constant S256x512 .f32 0x00000000#32)) (broadcastTo S256x512 l broadcasts_S256x1_S256x512)

/-- The chunk's mixed rows. -/
def tOf (kb : FVec Ideal S1024x512 .bf16) (q : FVec Ideal S256x512 .f32) : FVec Ideal S256x512 .f32 :=
  mixOf kb (expOf (scoreOf kb q)) (totalOf (expOf (scoreOf kb q)))

/-- 256 rows stored as a [1, 256, 512] piece. -/
def store3 (v : FVec Ideal S256x512 .f32) : FVec Ideal S1x256x512 .f32 :=
  shapeCast S1x256x512 v shapeCasts_S256x512_S1x256x512

/-- The four stored pieces of a chunk. -/
def pieceQ (q3 : Vec Ideal S1x256x512 .f32) : FVec Ideal S1x256x512 .f32 := store3 (rowsOf q3)
def pieceT (K3 : Vec Ideal S1x1024x512 .f32) (q3 : Vec Ideal S1x256x512 .f32) : FVec Ideal S1x256x512 .f32 :=
  store3 (tOf (keysOf K3) (rowsOf q3))
def pieceD (K3 : Vec Ideal S1x1024x512 .f32) (q3 : Vec Ideal S1x256x512 .f32) : FVec Ideal S1x256x512 .f32 :=
  store3 (subf (rowsOf q3) (tOf (keysOf K3) (rowsOf q3)))
def pieceM (K3 : Vec Ideal S1x1024x512 .f32) (q3 : Vec Ideal S1x256x512 .f32) : FVec Ideal S1x256x512 .f32 :=
  store3 (mulf (rowsOf q3) (tOf (keysOf K3) (rowsOf q3)))

/-! ## Each value at an index -/

theorem cons_ix2 {a b : ℕ} (r : Fin a) (e : Fin b) :
    (Fin.cons (⟨0, Nat.one_pos⟩ : Fin 1) (ix2 r e) : (⟨3, ![1, a, b]⟩ : Shape).Idx) = ix3 (0 : Fin 1) r e :=
  funext fun d => match d with
    | ⟨0, _⟩ => rfl
    | ⟨1, _⟩ => rfl
    | ⟨2, _⟩ => rfl

theorem keysOf_apply (K3 : Vec Ideal S1x1024x512 .f32) (c : Fin 1024) (e : Fin 512) :
    keysOf K3 (ix2 c e) = K3 (ix3 (0 : Fin 1) c e) :=
  (shapeCast_dropUnit_apply ![1024, 512] K3 shapeCasts_S1x1024x512_S1024x512 (ix2 c e)).trans
    (congrArg K3 (cons_ix2 c e))

theorem rowsOf_apply (q3 : Vec Ideal S1x256x512 .f32) (r : Fin 256) (e : Fin 512) :
    rowsOf q3 (ix2 r e) = q3 (ix3 (0 : Fin 1) r e) :=
  (shapeCast_dropUnit_apply ![256, 512] q3 shapeCasts_S1x256x512_S256x512 (ix2 r e)).trans
    (congrArg q3 (cons_ix2 r e))

theorem store3_apply (v : FVec Ideal S256x512 .f32) (r : Fin 256) (d : Fin 512) :
    store3 v (ix3 (0 : Fin 1) r d) = v (ix2 r d) :=
  (shapeCast_addUnit_apply ![256, 512] v shapeCasts_S256x512_S1x256x512 (ix3 (0 : Fin 1) r d)).trans
    (congrArg v (funext fun a => match a with
      | ⟨0, _⟩ => rfl
      | ⟨1, _⟩ => rfl))

theorem scoreOf_apply (kb : FVec Ideal S1024x512 .bf16) (q : FVec Ideal S256x512 .f32) (r : Fin 256) (c : Fin 1024) :
    scoreOf kb q (ix2 r c) = ∑ e : Fin 512, q (ix2 r e) * kb (ix2 c e) :=
  Cert.LibRowReduceProducts.matmulNT dot_S256x512_S1024x512_S256x1024_1_1_0_0_n_n rfl rfl rfl rfl rfl rfl none
    (truncf .bf16 q bitsLt_bf16_f32) kb r c

theorem expOf_apply (s : FVec Ideal S256x1024 .f32) (r : Fin 256) (c : Fin 1024) :
    expOf s (ix2 r c) = Ideal.exp (s (ix2 r c) - Finset.univ.sup fun c' : Fin 1024 => s (ix2 r c')) := by
  show Ideal.exp (s (ix2 r c) - broadcastTo S256x1024 (shapeCast S256x1
    (multiReduction .maximumf [1] S256 s 0xFF800000#32 reduces_S256x1024_S256 (.inl rfl) rfl)
    shapeCasts_S256_S256x1) broadcasts_S256x1_S256x1024 (ix2 r c)) = _
  refine congrArg (fun z => Ideal.exp (s (ix2 r c) - z)) ?_
  refine (Cert.LibKeepdimsCols.broadcastTo_a1_ab_apply _ broadcasts_S256x1_S256x1024 r c).trans ?_
  refine (Cert.LibKeepdimsCols.shapeCast_a_a1_apply _ shapeCasts_S256_S256x1 r 0).trans ?_
  exact Cert.LibRowReduceProducts.rowMax_apply s reduces_S256x1024_S256 (.inl rfl) rfl r

theorem totalOf_apply (p : FVec Ideal S256x1024 .f32) (r : Fin 256) :
    totalOf p (ix2 r (0 : Fin 1)) = ∑ c : Fin 1024, p (ix2 r c) :=
  (Cert.LibKeepdimsCols.shapeCast_a_a1_apply _ shapeCasts_S256_S256x1 r 0).trans
    (Cert.LibRowReduceProducts.rowSum_apply p reduces_S256x1024_S256 (.inl rfl) rfl r)

theorem mixOf_apply (kb : FVec Ideal S1024x512 .bf16) (p : FVec Ideal S256x1024 .f32) (l : FVec Ideal S256x1 .f32)
    (r : Fin 256) (d : Fin 512) :
    mixOf kb p l (ix2 r d) = Ideal.div (∑ c : Fin 1024, p (ix2 r c) * kb (ix2 c d)) (l (ix2 r (0 : Fin 1))) := by
  show Ideal.div (matmul dot_S256x1024_S1024x512_S256x512_1_0_0_1_n_n none (truncf .bf16 p bitsLt_bf16_f32) kb
    (constant S256x512 .f32 0x00000000#32) (ix2 r d)) (broadcastTo S256x512 l broadcasts_S256x1_S256x512 (ix2 r d)) = _
  rw [Cert.LibKeepdimsCols.broadcastTo_a1_ab_apply l broadcasts_S256x1_S256x512 r d]
  exact congrArg (fun z => Ideal.div z (l (ix2 r (0 : Fin 1))))
    (Cert.LibRowReduceProducts.matmulNN dot_S256x1024_S1024x512_S256x512_1_0_0_1_n_n rfl rfl rfl rfl rfl rfl none
      (truncf .bf16 p bitsLt_bf16_f32) kb r d)

/-- The chunk's mixed row r, feature d: the average of column d of the key block weighted by the shifted exponentials of
    the row's scores, the total divided out at the end. -/
theorem tOf_apply (K3 : Vec Ideal S1x1024x512 .f32) (q3 : Vec Ideal S1x256x512 .f32) (r : Fin 256) (d : Fin 512) :
    tOf (keysOf K3) (rowsOf q3) (ix2 r d)
      = mixK (scores (fun e => q3 (ix3 (0 : Fin 1) r e)) fun c e => K3 (ix3 (0 : Fin 1) c e))
          (fun c => K3 (ix3 (0 : Fin 1) c d)) := by
  unfold tOf
  rw [mixOf_apply, totalOf_apply]
  simp only [expOf_apply, scoreOf_apply, keysOf_apply, rowsOf_apply]
  rfl

/-- The four pieces at row r, feature d: the four bands of the row's query entry and mixed entry. -/
theorem pieceQ_apply (K3 : Vec Ideal S1x1024x512 .f32) (q3 : Vec Ideal S1x256x512 .f32) (r : Fin 256) (d : Fin 512) :
    pieceQ q3 (ix3 (0 : Fin 1) r d) = band 0 (q3 (ix3 (0 : Fin 1) r d))
      (mixK (scores (fun e => q3 (ix3 (0 : Fin 1) r e)) fun c e => K3 (ix3 (0 : Fin 1) c e))
        (fun c => K3 (ix3 (0 : Fin 1) c d))) :=
  (store3_apply _ r d).trans (rowsOf_apply q3 r d)

theorem pieceT_apply (K3 : Vec Ideal S1x1024x512 .f32) (q3 : Vec Ideal S1x256x512 .f32) (r : Fin 256) (d : Fin 512) :
    pieceT K3 q3 (ix3 (0 : Fin 1) r d) = band 1 (q3 (ix3 (0 : Fin 1) r d))
      (mixK (scores (fun e => q3 (ix3 (0 : Fin 1) r e)) fun c e => K3 (ix3 (0 : Fin 1) c e))
        (fun c => K3 (ix3 (0 : Fin 1) c d))) :=
  (store3_apply _ r d).trans (tOf_apply K3 q3 r d)

theorem pieceD_apply (K3 : Vec Ideal S1x1024x512 .f32) (q3 : Vec Ideal S1x256x512 .f32) (r : Fin 256) (d : Fin 512) :
    pieceD K3 q3 (ix3 (0 : Fin 1) r d) = band 2 (q3 (ix3 (0 : Fin 1) r d))
      (mixK (scores (fun e => q3 (ix3 (0 : Fin 1) r e)) fun c e => K3 (ix3 (0 : Fin 1) c e))
        (fun c => K3 (ix3 (0 : Fin 1) c d))) := by
  refine (store3_apply _ r d).trans ?_
  show rowsOf q3 (ix2 r d) - tOf (keysOf K3) (rowsOf q3) (ix2 r d) = _
  rw [rowsOf_apply, tOf_apply]
  rfl

theorem pieceM_apply (K3 : Vec Ideal S1x1024x512 .f32) (q3 : Vec Ideal S1x256x512 .f32) (r : Fin 256) (d : Fin 512) :
    pieceM K3 q3 (ix3 (0 : Fin 1) r d) = band 3 (q3 (ix3 (0 : Fin 1) r d))
      (mixK (scores (fun e => q3 (ix3 (0 : Fin 1) r e)) fun c e => K3 (ix3 (0 : Fin 1) c e))
        (fun c => K3 (ix3 (0 : Fin 1) c d))) := by
  refine (store3_apply _ r d).trans ?_
  show rowsOf q3 (ix2 r d) * tOf (keysOf K3) (rowsOf q3) (ix2 r d) = _
  rw [rowsOf_apply, tOf_apply]
  rfl

end Cert.KernelIdeal.Chunk

end
-- ==== Proof.KernelBlock0.lean ====
/-
  What one launch of the attention body leaves in its output block, as ONE function of the two input blocks.

  The body reads the query block x0 and the key block x1, both [1, 1024, 512], and writes its [1, 1024, 2048] output
  block through sixteen stores: for each of four chunks of 256 rows, the four bands of 512 columns. Every store's
  payload is the restriction to its rectangle of one function of the block index (0, r, j): the output row of query
  row r of x0 against the key rows of x1, at column j, the mixed row formed by contracting first and dividing by the
  weights' total afterwards. The sixteen rectangles tile the block, so the block ends holding that function.
-/
import proofs.«110507_j24867860643935_2_alg».proof.Proof.Gen.KernelIdeal.Frame
import proofs.«110507_j24867860643935_2_alg».proof.Proof.ChunkOps
import proofs.«110507_j24867860643935_2_alg».proof.Proof.AttnSpec
import Idealize.ShloMosaic.Lib.Pipeline.Value
import Idealize.ShloMosaic.Lib.ValueIdx

set_option synthInstance.maxSize 4096

noncomputable section

open scoped BigOperators

namespace Cert.KernelIdeal.Block0

open Cert.KernelIdeal Cert.KernelIdeal.Gen Cert.KernelIdeal.Chunk Cert.AttnSpec
open Idealize.ShloMosaic Idealize.ShloMosaic.ValueIdx

/-- The output block as a function of the input blocks: row r, column j is the output row of query row r. -/
def Gblk (x0 x1 : Vec Ideal S1x1024x512 .f32) : Vec Ideal S1x1024x2048 .f32 := fun y =>
  outRow mixK (fun e => x0 (ix3 (0 : Fin 1) (⟨(y 1).val, (y 1).isLt⟩ : Fin 1024) e)) (fun c e => x1 (ix3 (0 : Fin 1) c e))
    (⟨(y 2).val, (y 2).isLt⟩ : Fin 2048)

theorem hz3 : (![0, 0, 0] : Fin 3 → Nat) = fun _ => 0 := funext fun a => by fin_cases a <;> rfl

/-- A slice of 256 query rows starting at row ro, read at (0, r, e): the block at row ro + r. -/
theorem ld_rows (x0 : Vec Ideal S1x1024x512 .f32) (ro : ℕ)
    (inb : ∀ a, (![0, ro, 0] : Fin 3 → Nat) a + S1x256x512.size a ≤ S1x1024x512.size a) (hro : ro + 256 ≤ 1024)
    (r : Fin 256) (e : Fin 512) :
    View.ld x0 (Rect.unit (s := S1x1024x512) ![0, ro, 0] S1x256x512.size inb) (ix3 (0 : Fin 1) r e)
      = x0 (ix3 (0 : Fin 1) ⟨ro + r.val, by have := r.isLt; omega⟩ e) :=
  congrArg x0 (funext fun a => Fin.ext (by
    match a with
    | ⟨0, _⟩ => show 0 + 1 * 0 = 0; omega
    | ⟨1, _⟩ => show ro + 1 * r.val = ro + r.val; omega
    | ⟨2, _⟩ => show 0 + 1 * e.val = e.val; omega))

/-- A stored piece that is band n of the chunk starting at row ro restricts the block function to its rectangle:
    local index x sits at block row ro + x 1 and block column 512 * n + x 2. -/
theorem piece_restricts (x0 x1 : Vec Ideal S1x1024x512 .f32) (q3 : Vec Ideal S1x256x512 .f32) (ro : ℕ)
    (hro : ro + 256 ≤ 1024)
    (hq : ∀ (r : Fin 256) (e : Fin 512),
      q3 (ix3 (0 : Fin 1) r e) = x0 (ix3 (0 : Fin 1) ⟨ro + r.val, by have := r.isLt; omega⟩ e))
    (n : ℕ) (P : FVec Ideal S1x256x512 .f32)
    (hP : ∀ (r : Fin 256) (d : Fin 512), P (ix3 (0 : Fin 1) r d) = band n (q3 (ix3 (0 : Fin 1) r d))
      (mixK (scores (fun e => q3 (ix3 (0 : Fin 1) r e)) fun c e => x1 (ix3 (0 : Fin 1) c e))
        (fun c => x1 (ix3 (0 : Fin 1) c d))))
    (x : S1x256x512.Idx) (y : S1x1024x2048.Idx) (h1 : (y 1).val = ro + (x 1).val)
    (h2 : (y 2).val = 512 * n + (x 2).val) : P x = Gblk x0 x1 y := by
  have hx1 : (x 1).val < 256 := (x 1).isLt
  have hx2 : (x 2).val < 512 := (x 2).isLt
  have hx : x = ix3 (0 : Fin 1) (⟨(x 1).val, hx1⟩ : Fin 256) (⟨(x 2).val, hx2⟩ : Fin 512) := by
    funext a
    match a with
    | ⟨0, _⟩ => exact Fin.ext (by have h : (x 0).val < 1 := (x 0).isLt; show (x 0).val = 0; omega)
    | ⟨1, _⟩ => rfl
    | ⟨2, _⟩ => rfl
  refine (congrArg P hx).trans ?_
  rw [hP]
  unfold Gblk
  rw [outRow_band mixK _ _ n (⟨(x 2).val, hx2⟩ : Fin 512) (⟨(y 2).val, (y 2).isLt⟩ : Fin 2048) h2]
  have hr : (⟨(y 1).val, (y 1).isLt⟩ : Fin 1024) = ⟨ro + (x 1).val, by omega⟩ := Fin.ext h1
  rw [hr]
  simp only [hq]

/-- The sixteen stores in the chunk's vocabulary, LAST first. -/
abbrev pieces (x0 x1 : Vec Ideal S1x1024x512 .f32) : List (View.Piece (Elt Ideal) S1x1024x2048 .f32) :=
  [⟨r0_20, pieceM x1 (View.ld x0 r0_16)⟩, ⟨r0_19, pieceD x1 (View.ld x0 r0_16)⟩,
   ⟨r0_18, pieceT x1 (View.ld x0 r0_16)⟩, ⟨r0_17, pieceQ (View.ld x0 r0_16)⟩,
   ⟨r0_15, pieceM x1 (View.ld x0 r0_11)⟩, ⟨r0_14, pieceD x1 (View.ld x0 r0_11)⟩,
   ⟨r0_13, pieceT x1 (View.ld x0 r0_11)⟩, ⟨r0_12, pieceQ (View.ld x0 r0_11)⟩,
   ⟨r0_10, pieceM x1 (View.ld x0 r0_6)⟩, ⟨r0_9, pieceD x1 (View.ld x0 r0_6)⟩,
   ⟨r0_8, pieceT x1 (View.ld x0 r0_6)⟩, ⟨r0_7, pieceQ (View.ld x0 r0_6)⟩,
   ⟨r0_5, pieceM x1 (View.ld x0 r0_1)⟩, ⟨r0_4, pieceD x1 (View.ld x0 r0_1)⟩,
   ⟨r0_3, pieceT x1 (View.ld x0 r0_1)⟩, ⟨r0_2, pieceQ (View.ld x0 r0_1)⟩]

/-- The body's stores are those pieces: each printed payload is the chunk's value of that name. -/
theorem out_pieces (x0 x1 : Vec Ideal S1x1024x512 .f32) : out0_2 (F := Ideal) x0 x1 = View.canon (pieces x0 x1) := by
  unfold out0_2
  simp only [View.ld_unit_zero (S := S1x1024x512) hz3]
  rfl

/-- The output block after the body is the block function of the input blocks. -/
theorem out_eq (x0 x1 : Vec Ideal S1x1024x512 .f32) : out0_2 (F := Ideal) x0 x1 = Gblk x0 x1 := by
  funext y
  rw [out_pieces]
  refine View.canon_apply_of_pieces (Gblk x0 x1) (pieces x0 x1) ?_ y (cover0_2 _ _ _ _ _ _ _ _ _ _ _ _ _ _ _ _ y)
  intro p hp x
  simp only [pieces, List.mem_cons, List.not_mem_nil, or_false] at hp
  rcases hp with rfl | rfl | rfl | rfl | rfl | rfl | rfl | rfl | rfl | rfl | rfl | rfl | rfl | rfl | rfl | rfl
  · exact piece_restricts x0 x1 _ 768 (by norm_num) (ld_rows x0 768 _ (by norm_num)) 3 _ (pieceM_apply x1 _) x _
      (by show 768 + 1 * (x 1).val = 768 + (x 1).val; omega) (by show 1536 + 1 * (x 2).val = 512 * 3 + (x 2).val; omega)
  · exact piece_restricts x0 x1 _ 768 (by norm_num) (ld_rows x0 768 _ (by norm_num)) 2 _ (pieceD_apply x1 _) x _
      (by show 768 + 1 * (x 1).val = 768 + (x 1).val; omega) (by show 1024 + 1 * (x 2).val = 512 * 2 + (x 2).val; omega)
  · exact piece_restricts x0 x1 _ 768 (by norm_num) (ld_rows x0 768 _ (by norm_num)) 1 _ (pieceT_apply x1 _) x _
      (by show 768 + 1 * (x 1).val = 768 + (x 1).val; omega) (by show 512 + 1 * (x 2).val = 512 * 1 + (x 2).val; omega)
  · exact piece_restricts x0 x1 _ 768 (by norm_num) (ld_rows x0 768 _ (by norm_num)) 0 _ (pieceQ_apply x1 _) x _
      (by show 768 + 1 * (x 1).val = 768 + (x 1).val; omega) (by show 0 + 1 * (x 2).val = 512 * 0 + (x 2).val; omega)
  · exact piece_restricts x0 x1 _ 512 (by norm_num) (ld_rows x0 512 _ (by norm_num)) 3 _ (pieceM_apply x1 _) x _
      (by show 512 + 1 * (x 1).val = 512 + (x 1).val; omega) (by show 1536 + 1 * (x 2).val = 512 * 3 + (x 2).val; omega)
  · exact piece_restricts x0 x1 _ 512 (by norm_num) (ld_rows x0 512 _ (by norm_num)) 2 _ (pieceD_apply x1 _) x _
      (by show 512 + 1 * (x 1).val = 512 + (x 1).val; omega) (by show 1024 + 1 * (x 2).val = 512 * 2 + (x 2).val; omega)
  · exact piece_restricts x0 x1 _ 512 (by norm_num) (ld_rows x0 512 _ (by norm_num)) 1 _ (pieceT_apply x1 _) x _
      (by show 512 + 1 * (x 1).val = 512 + (x 1).val; omega) (by show 512 + 1 * (x 2).val = 512 * 1 + (x 2).val; omega)
  · exact piece_restricts x0 x1 _ 512 (by norm_num) (ld_rows x0 512 _ (by norm_num)) 0 _ (pieceQ_apply x1 _) x _
      (by show 512 + 1 * (x 1).val = 512 + (x 1).val; omega) (by show 0 + 1 * (x 2).val = 512 * 0 + (x 2).val; omega)
  · exact piece_restricts x0 x1 _ 256 (by norm_num) (ld_rows x0 256 _ (by norm_num)) 3 _ (pieceM_apply x1 _) x _
      (by show 256 + 1 * (x 1).val = 256 + (x 1).val; omega) (by show 1536 + 1 * (x 2).val = 512 * 3 + (x 2).val; omega)
  · exact piece_restricts x0 x1 _ 256 (by norm_num) (ld_rows x0 256 _ (by norm_num)) 2 _ (pieceD_apply x1 _) x _
      (by show 256 + 1 * (x 1).val = 256 + (x 1).val; omega) (by show 1024 + 1 * (x 2).val = 512 * 2 + (x 2).val; omega)
  · exact piece_restricts x0 x1 _ 256 (by norm_num) (ld_rows x0 256 _ (by norm_num)) 1 _ (pieceT_apply x1 _) x _
      (by show 256 + 1 * (x 1).val = 256 + (x 1).val; omega) (by show 512 + 1 * (x 2).val = 512 * 1 + (x 2).val; omega)
  · exact piece_restricts x0 x1 _ 256 (by norm_num) (ld_rows x0 256 _ (by norm_num)) 0 _ (pieceQ_apply x1 _) x _
      (by show 256 + 1 * (x 1).val = 256 + (x 1).val; omega) (by show 0 + 1 * (x 2).val = 512 * 0 + (x 2).val; omega)
  · exact piece_restricts x0 x1 _ 0 (by norm_num) (ld_rows x0 0 _ (by norm_num)) 3 _ (pieceM_apply x1 _) x _
      (by show 0 + 1 * (x 1).val = 0 + (x 1).val; omega) (by show 1536 + 1 * (x 2).val = 512 * 3 + (x 2).val; omega)
  · exact piece_restricts x0 x1 _ 0 (by norm_num) (ld_rows x0 0 _ (by norm_num)) 2 _ (pieceD_apply x1 _) x _
      (by show 0 + 1 * (x 1).val = 0 + (x 1).val; omega) (by show 1024 + 1 * (x 2).val = 512 * 2 + (x 2).val; omega)
  · exact piece_restricts x0 x1 _ 0 (by norm_num) (ld_rows x0 0 _ (by norm_num)) 1 _ (pieceT_apply x1 _) x _
      (by show 0 + 1 * (x 1).val = 0 + (x 1).val; omega) (by show 512 + 1 * (x 2).val = 512 * 1 + (x 2).val; omega)
  · exact piece_restricts x0 x1 _ 0 (by norm_num) (ld_rows x0 0 _ (by norm_num)) 0 _ (pieceQ_apply x1 _) x _
      (by show 0 + 1 * (x 1).val = 0 + (x 1).val; omega) (by show 0 + 1 * (x 2).val = 512 * 0 + (x 2).val; omega)

end Cert.KernelIdeal.Block0

end
-- ==== Proof.KernelFinal0.lean ====
/-
  From blocks to the array: what region 0's output array holds after its last write-back.

  The grid has 16 points; point t stages block (t, 0, 0) of each of its three arrays: batch t of the query array, of the
  key array and of the output array, each whole on its other two axes. What point t writes back is the block function
  of the two input blocks it found (the body's sixteen stores read back as one function), and that is batch t of the
  output array function of the two whole input arrays, row by row. Every index of the output array lies in the block of
  the point its batch coordinate names, so after the last write-back the array holds that function everywhere.
  Stated for any contents V of the buffers at the region's entry.
-/
import proofs.«110507_j24867860643935_2_alg».proof.Proof.Gen.KernelIdeal.Frame
import proofs.«110507_j24867860643935_2_alg».proof.Proof.KernelBlock0
import proofs.«110507_j24867860643935_2_alg».proof.Proof.AttnSpec
import Idealize.ShloMosaic.Lib.Pipeline.Value
import Idealize.ShloMosaic.Lib.ValueIdx

set_option synthInstance.maxSize 4096

noncomputable section

namespace Cert.KernelIdeal.Final0

open Cert.KernelIdeal Cert.KernelIdeal.Gen Cert.KernelIdeal.Block0 Cert.AttnSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT t WRITES BACK is block t of the output array function of the two input arrays as the region finds
    them. -/
theorem flushed_eq (c : Dev nD) (t : Fin cfg0.N) :
    (dat0 V c).flushed 2 t
      = ((cfg0.win 2).blk t).view.read (Elt Ideal) (outArr mixK (V c main_arg0) (V c main_arg1)) := by
  show (cfg0.win 2).cut (grid0.coords t) ((dat0 V c).after 2 t) = _
  rw [after0_2, out_eq]
  obtain ⟨a0, a1, a2, b0, b1, b2, o0, o1, o2⟩ := idx_facts t
  have ht : t.val < 16 := t.isLt
  have hA : ∀ (r : Fin 1024) (e : Fin 512),
      iblk0 V c 0 t (ix3 (0 : Fin 1) r e) = V c main_arg0 (ix3 (⟨t.val, ht⟩ : Fin 16) r e) := fun r e => by
    show V c main_arg0 (((cfg0.win 0).blk t).view.emb (ix3 (0 : Fin 1) r e)) = _
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 1024 + 1 * r.val = r.val; omega
    | ⟨2, _⟩ => show win0_0.index t (2 : Fin 3) * 512 + 1 * e.val = e.val; omega
  have hB : ∀ (r : Fin 1024) (e : Fin 512),
      iblk0 V c 1 t (ix3 (0 : Fin 1) r e) = V c main_arg1 (ix3 (⟨t.val, ht⟩ : Fin 16) r e) := fun r e => by
    show V c main_arg1 (((cfg0.win 1).blk t).view.emb (ix3 (0 : Fin 1) r e)) = _
    refine congrArg (V c main_arg1) (funext fun a => Fin.ext ?_)
    match a with
    | ⟨0, _⟩ => show win0_1.index t (0 : Fin 3) * 1 + 1 * 0 = t.val; omega
    | ⟨1, _⟩ => show win0_1.index t (1 : Fin 3) * 1024 + 1 * r.val = r.val; omega
    | ⟨2, _⟩ => show win0_1.index t (2 : Fin 3) * 512 + 1 * e.val = e.val; omega
  funext j
  have hj0 : (j 0).val < 1 := (j 0).isLt
  have hj1 : (j 1).val < 1024 := (j 1).isLt
  have hj2 : (j 2).val < 2048 := (j 2).isLt
  show Gblk (iblk0 V c 0 t) (iblk0 V c 1 t) j
    = outArr mixK (V c main_arg0) (V c main_arg1) (((cfg0.win 2).blk t).view.emb j)
  rw [outArr_apply mixK _ _ _ (⟨t.val, ht⟩ : Fin 16) (⟨(j 1).val, hj1⟩ : Fin 1024) (⟨(j 2).val, hj2⟩ : Fin 2048)
    (by show win0_2.index t (0 : Fin 3) * 1 + 1 * (j 0).val = t.val; omega)
    (by show win0_2.index t (1 : Fin 3) * 1024 + 1 * (j 1).val = (j 1).val; omega)
    (by show win0_2.index t (2 : Fin 3) * 2048 + 1 * (j 2).val = (j 2).val; omega)]
  unfold Gblk
  simp only [hA, hB]

/-- An index of the output array is in point t's block iff each coordinate is in the block's range on its axis. -/
theorem mem_blk (t : Fin cfg0.N) (i : S16x1024x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0).slice (win0_2.rect t)).set ↔ _
  rw [View.set_slice_whole, Rect.mem_set_unit]
  exact Iff.rfl

/-- Every index of the output array is in the block of the point its batch coordinate names. -/
theorem cover (i : S16x1024x2048.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 2048 := (i 2).isLt
  obtain ⟨-, -, -, -, -, -, o0, o1, o2⟩ := idx_facts (⟨(i 0).val, hi0⟩ : Fin cfg0.N)
  have o0' : win0_2.index (⟨(i 0).val, hi0⟩ : Fin cfg0.N) (0 : Fin 3) = (i 0).val := o0
  refine ⟨⟨(i 0).val, hi0⟩, flush0_2 _, ?_⟩
  rw [mem_blk]
  intro a
  match a with
  | ⟨0, _⟩ =>
    show win0_2.index (⟨(i 0).val, hi0⟩ : Fin cfg0.N) (0 : Fin 3) * 1 ≤ (i 0).val
      ∧ (i 0).val < win0_2.index (⟨(i 0).val, hi0⟩ : Fin cfg0.N) (0 : Fin 3) * 1 + 1
    omega
  | ⟨1, _⟩ =>
    show win0_2.index (⟨(i 0).val, hi0⟩ : Fin cfg0.N) (1 : Fin 3) * 1024 ≤ (i 1).val
      ∧ (i 1).val < win0_2.index (⟨(i 0).val, hi0⟩ : Fin cfg0.N) (1 : Fin 3) * 1024 + 1024
    omega
  | ⟨2, _⟩ =>
    show win0_2.index (⟨(i 0).val, hi0⟩ : Fin cfg0.N) (2 : Fin 3) * 2048 ≤ (i 2).val
      ∧ (i 2).val < win0_2.index (⟨(i 0).val, hi0⟩ : Fin cfg0.N) (2 : Fin 3) * 2048 + 2048
    omega

/-- THE ARRAY after the region: the output array function of the two input arrays as the region finds them. -/
theorem final (c : Dev nD) :
    (dat0 V c).arrAt 2 cfg0.N = outArr mixK (V c main_arg0) (V c main_arg1) :=
  (dat0 V c).arrAt_eq_of_cover 2 _ (fun t _ => flushed_eq V c t) cover

end Cert.KernelIdeal.Final0

end
-- ==== Proof.KernelBlock1.lean ====
/-
  What one launch of the attention body leaves in its output block, as ONE function of the two input blocks.

  The body reads the query block x0 and the key block x1, both [1, 1024, 512], and writes its [1, 1024, 2048] output
  block through sixteen stores: for each of four chunks of 256 rows, the four bands of 512 columns. Every store's
  payload is the restriction to its rectangle of one function of the block index (0, r, j): the output row of query
  row r of x0 against the key rows of x1, at column j, the mixed row formed by contracting first and dividing by the
  weights' total afterwards. The sixteen rectangles tile the block, so the block ends holding that function.
-/
import proofs.«110507_j24867860643935_2_alg».proof.Proof.Gen.KernelIdeal.Frame
import proofs.«110507_j24867860643935_2_alg».proof.Proof.ChunkOps
import proofs.«110507_j24867860643935_2_alg».proof.Proof.AttnSpec
import Idealize.ShloMosaic.Lib.Pipeline.Value
import Idealize.ShloMosaic.Lib.ValueIdx

set_option synthInstance.maxSize 4096

noncomputable section

open scoped BigOperators

namespace Cert.KernelIdeal.Block1

open Cert.KernelIdeal Cert.KernelIdeal.Gen Cert.KernelIdeal.Chunk Cert.AttnSpec
open Idealize.ShloMosaic Idealize.ShloMosaic.ValueIdx

/-- The output block as a function of the input blocks: row r, column j is the output row of query row r. -/
def Gblk (x0 x1 : Vec Ideal S1x1024x512 .f32) : Vec Ideal S1x1024x2048 .f32 := fun y =>
  outRow mixK (fun e => x0 (ix3 (0 : Fin 1) (⟨(y 1).val, (y 1).isLt⟩ : Fin 1024) e)) (fun c e => x1 (ix3 (0 : Fin 1) c e))
    (⟨(y 2).val, (y 2).isLt⟩ : Fin 2048)

theorem hz3 : (![0, 0, 0] : Fin 3 → Nat) = fun _ => 0 := funext fun a => by fin_cases a <;> rfl

/-- A slice of 256 query rows starting at row ro, read at (0, r, e): the block at row ro + r. -/
theorem ld_rows (x0 : Vec Ideal S1x1024x512 .f32) (ro : ℕ)
    (inb : ∀ a, (![0, ro, 0] : Fin 3 → Nat) a + S1x256x512.size a ≤ S1x1024x512.size a) (hro : ro + 256 ≤ 1024)
    (r : Fin 256) (e : Fin 512) :
    View.ld x0 (Rect.unit (s := S1x1024x512) ![0, ro, 0] S1x256x512.size inb) (ix3 (0 : Fin 1) r e)
      = x0 (ix3 (0 : Fin 1) ⟨ro + r.val, by have := r.isLt; omega⟩ e) :=
  congrArg x0 (funext fun a => Fin.ext (by
    match a with
    | ⟨0, _⟩ => show 0 + 1 * 0 = 0; omega
    | ⟨1, _⟩ => show ro + 1 * r.val = ro + r.val; omega
    | ⟨2, _⟩ => show 0 + 1 * e.val = e.val; omega))

/-- A stored piece that is band n of the chunk starting at row ro restricts the block function to its rectangle:
    local index x sits at block row ro + x 1 and block column 512 * n + x 2. -/
theorem piece_restricts (x0 x1 : Vec Ideal S1x1024x512 .f32) (q3 : Vec Ideal S1x256x512 .f32) (ro : ℕ)
    (hro : ro + 256 ≤ 1024)
    (hq : ∀ (r : Fin 256) (e : Fin 512),
      q3 (ix3 (0 : Fin 1) r e) = x0 (ix3 (0 : Fin 1) ⟨ro + r.val, by have := r.isLt; omega⟩ e))
    (n : ℕ) (P : FVec Ideal S1x256x512 .f32)
    (hP : ∀ (r : Fin 256) (d : Fin 512), P (ix3 (0 : Fin 1) r d) = band n (q3 (ix3 (0 : Fin 1) r d))
      (mixK (scores (fun e => q3 (ix3 (0 : Fin 1) r e)) fun c e => x1 (ix3 (0 : Fin 1) c e))
        (fun c => x1 (ix3 (0 : Fin 1) c d))))
    (x : S1x256x512.Idx) (y : S1x1024x2048.Idx) (h1 : (y 1).val = ro + (x 1).val)
    (h2 : (y 2).val = 512 * n + (x 2).val) : P x = Gblk x0 x1 y := by
  have hx1 : (x 1).val < 256 := (x 1).isLt
  have hx2 : (x 2).val < 512 := (x 2).isLt
  have hx : x = ix3 (0 : Fin 1) (⟨(x 1).val, hx1⟩ : Fin 256) (⟨(x 2).val, hx2⟩ : Fin 512) := by
    funext a
    match a with
    | ⟨0, _⟩ => exact Fin.ext (by have h : (x 0).val < 1 := (x 0).isLt; show (x 0).val = 0; omega)
    | ⟨1, _⟩ => rfl
    | ⟨2, _⟩ => rfl
  refine (congrArg P hx).trans ?_
  rw [hP]
  unfold Gblk
  rw [outRow_band mixK _ _ n (⟨(x 2).val, hx2⟩ : Fin 512) (⟨(y 2).val, (y 2).isLt⟩ : Fin 2048) h2]
  have hr : (⟨(y 1).val, (y 1).isLt⟩ : Fin 1024) = ⟨ro + (x 1).val, by omega⟩ := Fin.ext h1
  rw [hr]
  simp only [hq]

/-- The sixteen stores in the chunk's vocabulary, LAST first. -/
abbrev pieces (x0 x1 : Vec Ideal S1x1024x512 .f32) : List (View.Piece (Elt Ideal) S1x1024x2048 .f32) :=
  [⟨r1_20, pieceM x1 (View.ld x0 r1_16)⟩, ⟨r1_19, pieceD x1 (View.ld x0 r1_16)⟩,
   ⟨r1_18, pieceT x1 (View.ld x0 r1_16)⟩, ⟨r1_17, pieceQ (View.ld x0 r1_16)⟩,
   ⟨r1_15, pieceM x1 (View.ld x0 r1_11)⟩, ⟨r1_14, pieceD x1 (View.ld x0 r1_11)⟩,
   ⟨r1_13, pieceT x1 (View.ld x0 r1_11)⟩, ⟨r1_12, pieceQ (View.ld x0 r1_11)⟩,
   ⟨r1_10, pieceM x1 (View.ld x0 r1_6)⟩, ⟨r1_9, pieceD x1 (View.ld x0 r1_6)⟩,
   ⟨r1_8, pieceT x1 (View.ld x0 r1_6)⟩, ⟨r1_7, pieceQ (View.ld x0 r1_6)⟩,
   ⟨r1_5, pieceM x1 (View.ld x0 r1_1)⟩, ⟨r1_4, pieceD x1 (View.ld x0 r1_1)⟩,
   ⟨r1_3, pieceT x1 (View.ld x0 r1_1)⟩, ⟨r1_2, pieceQ (View.ld x0 r1_1)⟩]

/-- The body's stores are those pieces: each printed payload is the chunk's value of that name. -/
theorem out_pieces (x0 x1 : Vec Ideal S1x1024x512 .f32) : out1_2 (F := Ideal) x0 x1 = View.canon (pieces x0 x1) := by
  unfold out1_2
  simp only [View.ld_unit_zero (S := S1x1024x512) hz3]
  rfl

/-- The output block after the body is the block function of the input blocks. -/
theorem out_eq (x0 x1 : Vec Ideal S1x1024x512 .f32) : out1_2 (F := Ideal) x0 x1 = Gblk x0 x1 := by
  funext y
  rw [out_pieces]
  refine View.canon_apply_of_pieces (Gblk x0 x1) (pieces x0 x1) ?_ y (cover1_2 _ _ _ _ _ _ _ _ _ _ _ _ _ _ _ _ y)
  intro p hp x
  simp only [pieces, List.mem_cons, List.not_mem_nil, or_false] at hp
  rcases hp with rfl | rfl | rfl | rfl | rfl | rfl | rfl | rfl | rfl | rfl | rfl | rfl | rfl | rfl | rfl | rfl
  · exact piece_restricts x0 x1 _ 768 (by norm_num) (ld_rows x0 768 _ (by norm_num)) 3 _ (pieceM_apply x1 _) x _
      (by show 768 + 1 * (x 1).val = 768 + (x 1).val; omega) (by show 1536 + 1 * (x 2).val = 512 * 3 + (x 2).val; omega)
  · exact piece_restricts x0 x1 _ 768 (by norm_num) (ld_rows x0 768 _ (by norm_num)) 2 _ (pieceD_apply x1 _) x _
      (by show 768 + 1 * (x 1).val = 768 + (x 1).val; omega) (by show 1024 + 1 * (x 2).val = 512 * 2 + (x 2).val; omega)
  · exact piece_restricts x0 x1 _ 768 (by norm_num) (ld_rows x0 768 _ (by norm_num)) 1 _ (pieceT_apply x1 _) x _
      (by show 768 + 1 * (x 1).val = 768 + (x 1).val; omega) (by show 512 + 1 * (x 2).val = 512 * 1 + (x 2).val; omega)
  · exact piece_restricts x0 x1 _ 768 (by norm_num) (ld_rows x0 768 _ (by norm_num)) 0 _ (pieceQ_apply x1 _) x _
      (by show 768 + 1 * (x 1).val = 768 + (x 1).val; omega) (by show 0 + 1 * (x 2).val = 512 * 0 + (x 2).val; omega)
  · exact piece_restricts x0 x1 _ 512 (by norm_num) (ld_rows x0 512 _ (by norm_num)) 3 _ (pieceM_apply x1 _) x _
      (by show 512 + 1 * (x 1).val = 512 + (x 1).val; omega) (by show 1536 + 1 * (x 2).val = 512 * 3 + (x 2).val; omega)
  · exact piece_restricts x0 x1 _ 512 (by norm_num) (ld_rows x0 512 _ (by norm_num)) 2 _ (pieceD_apply x1 _) x _
      (by show 512 + 1 * (x 1).val = 512 + (x 1).val; omega) (by show 1024 + 1 * (x 2).val = 512 * 2 + (x 2).val; omega)
  · exact piece_restricts x0 x1 _ 512 (by norm_num) (ld_rows x0 512 _ (by norm_num)) 1 _ (pieceT_apply x1 _) x _
      (by show 512 + 1 * (x 1).val = 512 + (x 1).val; omega) (by show 512 + 1 * (x 2).val = 512 * 1 + (x 2).val; omega)
  · exact piece_restricts x0 x1 _ 512 (by norm_num) (ld_rows x0 512 _ (by norm_num)) 0 _ (pieceQ_apply x1 _) x _
      (by show 512 + 1 * (x 1).val = 512 + (x 1).val; omega) (by show 0 + 1 * (x 2).val = 512 * 0 + (x 2).val; omega)
  · exact piece_restricts x0 x1 _ 256 (by norm_num) (ld_rows x0 256 _ (by norm_num)) 3 _ (pieceM_apply x1 _) x _
      (by show 256 + 1 * (x 1).val = 256 + (x 1).val; omega) (by show 1536 + 1 * (x 2).val = 512 * 3 + (x 2).val; omega)
  · exact piece_restricts x0 x1 _ 256 (by norm_num) (ld_rows x0 256 _ (by norm_num)) 2 _ (pieceD_apply x1 _) x _
      (by show 256 + 1 * (x 1).val = 256 + (x 1).val; omega) (by show 1024 + 1 * (x 2).val = 512 * 2 + (x 2).val; omega)
  · exact piece_restricts x0 x1 _ 256 (by norm_num) (ld_rows x0 256 _ (by norm_num)) 1 _ (pieceT_apply x1 _) x _
      (by show 256 + 1 * (x 1).val = 256 + (x 1).val; omega) (by show 512 + 1 * (x 2).val = 512 * 1 + (x 2).val; omega)
  · exact piece_restricts x0 x1 _ 256 (by norm_num) (ld_rows x0 256 _ (by norm_num)) 0 _ (pieceQ_apply x1 _) x _
      (by show 256 + 1 * (x 1).val = 256 + (x 1).val; omega) (by show 0 + 1 * (x 2).val = 512 * 0 + (x 2).val; omega)
  · exact piece_restricts x0 x1 _ 0 (by norm_num) (ld_rows x0 0 _ (by norm_num)) 3 _ (pieceM_apply x1 _) x _
      (by show 0 + 1 * (x 1).val = 0 + (x 1).val; omega) (by show 1536 + 1 * (x 2).val = 512 * 3 + (x 2).val; omega)
  · exact piece_restricts x0 x1 _ 0 (by norm_num) (ld_rows x0 0 _ (by norm_num)) 2 _ (pieceD_apply x1 _) x _
      (by show 0 + 1 * (x 1).val = 0 + (x 1).val; omega) (by show 1024 + 1 * (x 2).val = 512 * 2 + (x 2).val; omega)
  · exact piece_restricts x0 x1 _ 0 (by norm_num) (ld_rows x0 0 _ (by norm_num)) 1 _ (pieceT_apply x1 _) x _
      (by show 0 + 1 * (x 1).val = 0 + (x 1).val; omega) (by show 512 + 1 * (x 2).val = 512 * 1 + (x 2).val; omega)
  · exact piece_restricts x0 x1 _ 0 (by norm_num) (ld_rows x0 0 _ (by norm_num)) 0 _ (pieceQ_apply x1 _) x _
      (by show 0 + 1 * (x 1).val = 0 + (x 1).val; omega) (by show 0 + 1 * (x 2).val = 512 * 0 + (x 2).val; omega)

end Cert.KernelIdeal.Block1

end
-- ==== Proof.KernelFinal1.lean ====
/-
  From blocks to the array: what region 1's output array holds after its last write-back.

  The grid has 16 points; point t stages block (t, 0, 0) of each of its three arrays: batch t of the query array, of the
  key array and of the output array, each whole on its other two axes. What point t writes back is the block function
  of the two input blocks it found (the body's sixteen stores read back as one function), and that is batch t of the
  output array function of the two whole input arrays, row by row. Every index of the output array lies in the block of
  the point its batch coordinate names, so after the last write-back the array holds that function everywhere.
  Stated for any contents V of the buffers at the region's entry.
-/
import proofs.«110507_j24867860643935_2_alg».proof.Proof.Gen.KernelIdeal.Frame
import proofs.«110507_j24867860643935_2_alg».proof.Proof.KernelBlock1
import proofs.«110507_j24867860643935_2_alg».proof.Proof.AttnSpec
import Idealize.ShloMosaic.Lib.Pipeline.Value
import Idealize.ShloMosaic.Lib.ValueIdx

set_option synthInstance.maxSize 4096

noncomputable section

namespace Cert.KernelIdeal.Final1

open Cert.KernelIdeal Cert.KernelIdeal.Gen Cert.KernelIdeal.Block1 Cert.AttnSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: every window's block index at point t is (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- WHAT POINT t WRITES BACK is block t of the output array function of the two input arrays as the region finds
    them. -/
theorem flushed_eq (c : Dev nD) (t : Fin cfg1.N) :
    (dat1 V c).flushed 2 t
      = ((cfg1.win 2).blk t).view.read (Elt Ideal) (outArr mixK (V c main_arg1) (V c main_arg0)) := by
  show (cfg1.win 2).cut (grid1.coords t) ((dat1 V c).after 2 t) = _
  rw [after1_2, out_eq]
  obtain ⟨a0, a1, a2, b0, b1, b2, o0, o1, o2⟩ := idx_facts t
  have ht : t.val < 16 := t.isLt
  have hA : ∀ (r : Fin 1024) (e : Fin 512),
      iblk1 V c 0 t (ix3 (0 : Fin 1) r e) = V c main_arg1 (ix3 (⟨t.val, ht⟩ : Fin 16) r e) := fun r e => by
    show V c main_arg1 (((cfg1.win 0).blk t).view.emb (ix3 (0 : Fin 1) r e)) = _
    refine congrArg (V c main_arg1) (funext fun a => Fin.ext ?_)
    match a with
    | ⟨0, _⟩ => show win1_0.index t (0 : Fin 3) * 1 + 1 * 0 = t.val; omega
    | ⟨1, _⟩ => show win1_0.index t (1 : Fin 3) * 1024 + 1 * r.val = r.val; omega
    | ⟨2, _⟩ => show win1_0.index t (2 : Fin 3) * 512 + 1 * e.val = e.val; omega
  have hB : ∀ (r : Fin 1024) (e : Fin 512),
      iblk1 V c 1 t (ix3 (0 : Fin 1) r e) = V c main_arg0 (ix3 (⟨t.val, ht⟩ : Fin 16) r e) := fun r e => by
    show V c main_arg0 (((cfg1.win 1).blk t).view.emb (ix3 (0 : Fin 1) r e)) = _
    refine congrArg (V c main_arg0) (funext fun a => Fin.ext ?_)
    match a with
    | ⟨0, _⟩ => show win1_1.index t (0 : Fin 3) * 1 + 1 * 0 = t.val; omega
    | ⟨1, _⟩ => show win1_1.index t (1 : Fin 3) * 1024 + 1 * r.val = r.val; omega
    | ⟨2, _⟩ => show win1_1.index t (2 : Fin 3) * 512 + 1 * e.val = e.val; omega
  funext j
  have hj0 : (j 0).val < 1 := (j 0).isLt
  have hj1 : (j 1).val < 1024 := (j 1).isLt
  have hj2 : (j 2).val < 2048 := (j 2).isLt
  show Gblk (iblk1 V c 0 t) (iblk1 V c 1 t) j
    = outArr mixK (V c main_arg1) (V c main_arg0) (((cfg1.win 2).blk t).view.emb j)
  rw [outArr_apply mixK _ _ _ (⟨t.val, ht⟩ : Fin 16) (⟨(j 1).val, hj1⟩ : Fin 1024) (⟨(j 2).val, hj2⟩ : Fin 2048)
    (by show win1_2.index t (0 : Fin 3) * 1 + 1 * (j 0).val = t.val; omega)
    (by show win1_2.index t (1 : Fin 3) * 1024 + 1 * (j 1).val = (j 1).val; omega)
    (by show win1_2.index t (2 : Fin 3) * 2048 + 1 * (j 2).val = (j 2).val; omega)]
  unfold Gblk
  simp only [hA, hB]

/-- An index of the output array is in point t's block iff each coordinate is in the block's range on its axis. -/
theorem mem_blk (t : Fin cfg1.N) (i : S16x1024x2048.Idx) :
    i ∈ ((cfg1.win 2).blk t).view.set ↔ ∀ a : Fin 3, win1_2.index t a * S1x1024x2048.size a ≤ (i a).val
      ∧ (i a).val < win1_2.index t a * S1x1024x2048.size a + S1x1024x2048.size a := by
  show i ∈ ((View.whole main_v1).slice (win1_2.rect t)).set ↔ _
  rw [View.set_slice_whole, Rect.mem_set_unit]
  exact Iff.rfl

/-- Every index of the output array is in the block of the point its batch coordinate names. -/
theorem cover (i : S16x1024x2048.Idx) :
    ∃ t : Fin cfg1.N, (cfg1.win 2).flush t = true ∧ i ∈ ((cfg1.win 2).blk t).view.set := by
  have hi0 : (i 0).val < 16 := (i 0).isLt
  have hi1 : (i 1).val < 1024 := (i 1).isLt
  have hi2 : (i 2).val < 2048 := (i 2).isLt
  obtain ⟨-, -, -, -, -, -, o0, o1, o2⟩ := idx_facts (⟨(i 0).val, hi0⟩ : Fin cfg1.N)
  have o0' : win1_2.index (⟨(i 0).val, hi0⟩ : Fin cfg1.N) (0 : Fin 3) = (i 0).val := o0
  refine ⟨⟨(i 0).val, hi0⟩, flush1_2 _, ?_⟩
  rw [mem_blk]
  intro a
  match a with
  | ⟨0, _⟩ =>
    show win1_2.index (⟨(i 0).val, hi0⟩ : Fin cfg1.N) (0 : Fin 3) * 1 ≤ (i 0).val
      ∧ (i 0).val < win1_2.index (⟨(i 0).val, hi0⟩ : Fin cfg1.N) (0 : Fin 3) * 1 + 1
    omega
  | ⟨1, _⟩ =>
    show win1_2.index (⟨(i 0).val, hi0⟩ : Fin cfg1.N) (1 : Fin 3) * 1024 ≤ (i 1).val
      ∧ (i 1).val < win1_2.index (⟨(i 0).val, hi0⟩ : Fin cfg1.N) (1 : Fin 3) * 1024 + 1024
    omega
  | ⟨2, _⟩ =>
    show win1_2.index (⟨(i 0).val, hi0⟩ : Fin cfg1.N) (2 : Fin 3) * 2048 ≤ (i 2).val
      ∧ (i 2).val < win1_2.index (⟨(i 0).val, hi0⟩ : Fin cfg1.N) (2 : Fin 3) * 2048 + 2048
    omega

/-- THE ARRAY after the region: the output array function of the two input arrays as the region finds them. -/
theorem final (c : Dev nD) :
    (dat1 V c).arrAt 2 cfg1.N = outArr mixK (V c main_arg1) (V c main_arg0) :=
  (dat1 V c).arrAt_eq_of_cover 2 _ (fun t _ => flushed_eq V c t) cover

end Cert.KernelIdeal.Final1

end
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.RefIsG.lean ====
/-
  The reference, read at an index on the extended reals.

  The reference forms the scores score (b, a, c) = ∑ e, A (b, a, e) * B (b, c, e) once, normalises them two ways and
  contracts each with one argument:
    * along c (each row a of batch b): weights exp (score - max over c) over their total along c, contracted with B
      over c. Row (b, a) of the first mixed array is the mix of the scores of row a of A against the rows of B with the
      columns of B, the weights normalised before contracting;
    * along a (each column c of batch b): weights exp (score - max over a) over their total along a, contracted with A
      over a. As score (b, a, c) is also the score of row c of B against row a of A (the product commutes), row (b, c)
      of the second mixed array is the mix of the scores of row c of B against the rows of A with the columns of A.
  Each maximum is taken from minus infinity and joined once more with minus infinity, each total is taken from zero,
  neither of which changes it. Each result is the concatenation of four bands of 512 columns: the argument, the mixed
  array, their difference and their product. So the results are outArr mixR A B and outArr mixR B A.
-/
import proofs.«110507_j24867860643935_2_alg».proof.Proof.RefRead
import proofs.«110507_j24867860643935_2_alg».proof.Proof.LibHostRowMax
import proofs.«110507_j24867860643935_2_alg».proof.Proof.AttnSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Cert.AttnSpec
open Idealize.ShloMosaic Idealize.ShloMosaic.ValueIdx

variable (A B : FVec Ideal S16x1024x512 .f32)

/-- The scores of row a of A against the rows of B, batch b. -/
def sA (b : Fin 16) (a : Fin 1024) : Fin 1024 → EReal :=
  scores (fun e => A (ix3 b a e)) fun c e => B (ix3 b c e)

/-- The scores of row c of B against the rows of A, batch b. -/
def sB (b : Fin 16) (c : Fin 1024) : Fin 1024 → EReal :=
  scores (fun e => B (ix3 b c e)) fun a e => A (ix3 b a e)

theorem reduces_d2 : S16x1024x1024.Reduces [2] S16x1024 := by decide
theorem reduces_d1 : S16x1024x1024.Reduces [1] S16x1024 := by decide

/-! ## The scores -/

theorem v0_apply (b : Fin 16) (a c : Fin 1024) : val_main_v0 (F := Ideal) A B (ix3 b a c) = sA A B b a c := by
  rw [val_main_v0_apply]
  have hl : ∀ k, lidx_main_v0 (ix3 b a c) k = ix3 b a k := fun k => funext fun d => Fin.ext (by
    match d with
    | ⟨0, _⟩ => rfl
    | ⟨1, _⟩ => rfl
    | ⟨2, _⟩ => rfl)
  have hr : ∀ k, ridx_main_v0 (ix3 b a c) k = ix3 b c k := fun k => funext fun d => Fin.ext (by
    match d with
    | ⟨0, _⟩ => rfl
    | ⟨1, _⟩ => rfl
    | ⟨2, _⟩ => rfl)
  simp only [hl, hr]
  rfl

theorem v0_apply' (b : Fin 16) (a c : Fin 1024) : val_main_v0 (F := Ideal) A B (ix3 b a c) = sB A B b c a := by
  rw [v0_apply]
  unfold sA sB scores
  exact Finset.sum_congr rfl fun e _ => mul_comm (A (ix3 b a e)) (B (ix3 b c e))

/-! ## The softmax along c and the first mixed array -/

theorem v1_apply (b : Fin 16) (a : Fin 1024) :
    val_main_v1 (F := Ideal) A B (ix2 b a) = Finset.univ.sup (sA A B b a) := by
  unfold val_main_v1 val_main_cst
  refine (Cert.Lib.HostRowMax.hostReduce_max (val_main_v0 (F := Ideal) A B) reducesTo_S16x1024x1024_S16x1024_d2
    reduces_d2 h_S_ (ix2 b a)).trans ?_
  refine Finset.sup_congr rfl fun k _ => ?_
  refine Eq.trans (congrArg (val_main_v0 (F := Ideal) A B) (funext fun d => Fin.ext ?_)) (v0_apply A B b a k)
  match d with
  | ⟨0, _⟩ => rfl
  | ⟨1, _⟩ => rfl
  | ⟨2, _⟩ => rfl

theorem v3_apply (b : Fin 16) (a : Fin 1024) :
    val_main_v3 (F := Ideal) A B (ix2 b a) = Finset.univ.sup (sA A B b a) := by
  rw [val_main_v3_apply, val_main_v2_apply, val_main_cst_0_apply, v1_apply]
  show max (Ideal.ofBits .f32 0xFF800000#32) _ = _
  rw [Cert.Lib.HostRowMax.ofBits_negInf, max_bot_left]

theorem v7_apply (b : Fin 16) (a c : Fin 1024) :
    val_main_v7 (F := Ideal) A B (ix3 b a c) = pexp (sA A B b a) c := by
  rw [val_main_v7_apply, val_main_v6_apply, val_main_v5_apply, val_main_v4_apply]
  have hi : idx_main_v4 (idx_main_v5 (ix3 b a c)) = ix2 b a := funext fun d => Fin.ext (by
    match d with
    | ⟨0, _⟩ => rfl
    | ⟨1, _⟩ => rfl)
  rw [hi, v3_apply, v0_apply]
  rfl

theorem v8_apply (b : Fin 16) (a : Fin 1024) :
    val_main_v8 (F := Ideal) A B (ix2 b a) = ∑ c : Fin 1024, pexp (sA A B b a) c := by
  rw [val_main_v8_apply]
  have hi : ∀ k, idx_main_v8 (ix2 b a) k = ix3 b a k := fun k => funext fun d => Fin.ext (by
    match d with
    | ⟨0, _⟩ => rfl
    | ⟨1, _⟩ => rfl
    | ⟨2, _⟩ => rfl)
  simp only [hi, v7_apply]
  show Ideal.ofBits .f32 0x00000000#32 + _ = _
  rw [Ideal.ofBits_zero_f32, zero_add]

theorem v11_apply (b : Fin 16) (a c : Fin 1024) :
    val_main_v11 (F := Ideal) A B (ix3 b a c)
      = Ideal.div (pexp (sA A B b a) c) (∑ c' : Fin 1024, pexp (sA A B b a) c') := by
  rw [val_main_v11_apply, val_main_v10_apply, val_main_v9_apply]
  have hi : idx_main_v9 (idx_main_v10 (ix3 b a c)) = ix2 b a := funext fun d => Fin.ext (by
    match d with
    | ⟨0, _⟩ => rfl
    | ⟨1, _⟩ => rfl)
  rw [hi, v8_apply, v7_apply]
  rfl

theorem v23_apply (b : Fin 16) (a : Fin 1024) (d : Fin 512) :
    val_main_v23 (F := Ideal) A B (ix3 b a d) = mixR (sA A B b a) fun c => B (ix3 b c d) := by
  rw [val_main_v23_apply]
  have hl : ∀ k, lidx_main_v23 (ix3 b a d) k = ix3 b a k := fun k => funext fun x => Fin.ext (by
    match x with
    | ⟨0, _⟩ => rfl
    | ⟨1, _⟩ => rfl
    | ⟨2, _⟩ => rfl)
  have hr : ∀ k, ridx_main_v23 (ix3 b a d) k = ix3 b k d := fun k => funext fun x => Fin.ext (by
    match x with
    | ⟨0, _⟩ => rfl
    | ⟨1, _⟩ => rfl
    | ⟨2, _⟩ => rfl)
  simp only [hl, hr, v11_apply]
  rfl

/-! ## The softmax along a and the second mixed array -/

theorem v12_apply (b : Fin 16) (c : Fin 1024) :
    val_main_v12 (F := Ideal) A B (ix2 b c) = Finset.univ.sup (sB A B b c) := by
  unfold val_main_v12 val_main_cst_2
  refine (Cert.Lib.HostRowMax.hostReduce_max (val_main_v0 (F := Ideal) A B) reducesTo_S16x1024x1024_S16x1024_d1
    reduces_d1 h_S_ (ix2 b c)).trans ?_
  refine Finset.sup_congr rfl fun k _ => ?_
  refine Eq.trans (congrArg (val_main_v0 (F := Ideal) A B) (funext fun d => Fin.ext ?_)) (v0_apply' A B b k c)
  match d with
  | ⟨0, _⟩ => rfl
  | ⟨1, _⟩ => rfl
  | ⟨2, _⟩ => rfl

theorem v14_apply (b : Fin 16) (c : Fin 1024) :
    val_main_v14 (F := Ideal) A B (ix2 b c) = Finset.univ.sup (sB A B b c) := by
  rw [val_main_v14_apply, val_main_v13_apply, val_main_cst_3_apply, v12_apply]
  show max (Ideal.ofBits .f32 0xFF800000#32) _ = _
  rw [Cert.Lib.HostRowMax.ofBits_negInf, max_bot_left]

theorem v18_apply (b : Fin 16) (a c : Fin 1024) :
    val_main_v18 (F := Ideal) A B (ix3 b a c) = pexp (sB A B b c) a := by
  rw [val_main_v18_apply, val_main_v17_apply, val_main_v16_apply, val_main_v15_apply]
  have hi : idx_main_v15 (idx_main_v16 (ix3 b a c)) = ix2 b c := funext fun d => Fin.ext (by
    match d with
    | ⟨0, _⟩ => rfl
    | ⟨1, _⟩ => rfl)
  rw [hi, v14_apply, v0_apply']
  rfl

theorem v19_apply (b : Fin 16) (c : Fin 1024) :
    val_main_v19 (F := Ideal) A B (ix2 b c) = ∑ a : Fin 1024, pexp (sB A B b c) a := by
  rw [val_main_v19_apply]
  have hi : ∀ k, idx_main_v19 (ix2 b c) k = ix3 b k c := fun k => funext fun d => Fin.ext (by
    match d with
    | ⟨0, _⟩ => rfl
    | ⟨1, _⟩ => rfl
    | ⟨2, _⟩ => rfl)
  simp only [hi, v18_apply]
  show Ideal.ofBits .f32 0x00000000#32 + _ = _
  rw [Ideal.ofBits_zero_f32, zero_add]

theorem v22_apply (b : Fin 16) (a c : Fin 1024) :
    val_main_v22 (F := Ideal) A B (ix3 b a c)
      = Ideal.div (pexp (sB A B b c) a) (∑ a' : Fin 1024, pexp (sB A B b c) a') := by
  rw [val_main_v22_apply, val_main_v21_apply, val_main_v20_apply]
  have hi : idx_main_v20 (idx_main_v21 (ix3 b a c)) = ix2 b c := funext fun d => Fin.ext (by
    match d with
    | ⟨0, _⟩ => rfl
    | ⟨1, _⟩ => rfl)
  rw [hi, v19_apply, v18_apply]
  rfl

theorem v24_apply (b : Fin 16) (c : Fin 1024) (d : Fin 512) :
    val_main_v24 (F := Ideal) A B (ix3 b c d) = mixR (sB A B b c) fun a => A (ix3 b a d) := by
  rw [val_main_v24_apply]
  have hl : ∀ k, lidx_main_v24 (ix3 b c d) k = ix3 b k c := fun k => funext fun x => Fin.ext (by
    match x with
    | ⟨0, _⟩ => rfl
    | ⟨1, _⟩ => rfl
    | ⟨2, _⟩ => rfl)
  have hr : ∀ k, ridx_main_v24 (ix3 b c d) k = ix3 b k d := fun k => funext fun x => Fin.ext (by
    match x with
    | ⟨0, _⟩ => rfl
    | ⟨1, _⟩ => rfl
    | ⟨2, _⟩ => rfl)
  simp only [hl, hr, v22_apply]
  rfl

/-! ## The four bands -/

/-- A concatenation of four [16, 1024, 512] arrays along the last axis, read at (b, a, 512 * n + d): array n at
    (b, a, d). -/
theorem concat4_apply (X0 X1 X2 X3 : FVec Ideal S16x1024x512 .f32)
    (h : Shape.Concatenates [S16x1024x512, S16x1024x512, S16x1024x512, S16x1024x512] S16x1024x2048 2)
    (b : Fin 16) (a : Fin 1024) (d : Fin 512) (y : S16x1024x2048.Idx) (h0 : (y 0).val = b.val)
    (h1 : (y 1).val = a.val) :
    ((y 2).val = 512 * 0 + d.val →
      concatenate S16x1024x2048 2 [⟨S16x1024x512, X0⟩, ⟨S16x1024x512, X1⟩, ⟨S16x1024x512, X2⟩, ⟨S16x1024x512, X3⟩] h y
        = X0 (ix3 b a d))
    ∧ ((y 2).val = 512 * 1 + d.val →
      concatenate S16x1024x2048 2 [⟨S16x1024x512, X0⟩, ⟨S16x1024x512, X1⟩, ⟨S16x1024x512, X2⟩, ⟨S16x1024x512, X3⟩] h y
        = X1 (ix3 b a d))
    ∧ ((y 2).val = 512 * 2 + d.val →
      concatenate S16x1024x2048 2 [⟨S16x1024x512, X0⟩, ⟨S16x1024x512, X1⟩, ⟨S16x1024x512, X2⟩, ⟨S16x1024x512, X3⟩] h y
        = X2 (ix3 b a d))
    ∧ ((y 2).val = 512 * 3 + d.val →
      concatenate S16x1024x2048 2 [⟨S16x1024x512, X0⟩, ⟨S16x1024x512, X1⟩, ⟨S16x1024x512, X2⟩, ⟨S16x1024x512, X3⟩] h y
        = X3 (ix3 b a d)) := by
  have hi : ∀ x : Fin 3, x.cast (rfl : S16x1024x512.rank = S16x1024x2048.rank) ≠ (2 : Fin 3) →
      ((ix3 b a d : S16x1024x512.Idx) x).val = (y (x.cast (rfl : S16x1024x512.rank = S16x1024x2048.rank))).val := fun x hx => by
    match x with
    | ⟨0, _⟩ => exact h0.symm
    | ⟨1, _⟩ => exact h1.symm
    | ⟨2, _⟩ => exact absurd rfl hx
  refine ⟨fun h2 => ?_, fun h2 => ?_, fun h2 => ?_, fun h2 => ?_⟩
  · exact concatenate_apply_piece (t := S16x1024x2048) (2 : Fin 3) [⟨S16x1024x512, X0⟩, ⟨S16x1024x512, X1⟩, ⟨S16x1024x512, X2⟩, ⟨S16x1024x512, X3⟩] h y 0 (by show 0 < 4; omega) S16x1024x512 X0 rfl rfl 0 rfl (ix3 b a d) hi
      (by show 0 + d.val = (y 2).val; omega)
  · exact concatenate_apply_piece (t := S16x1024x2048) (2 : Fin 3) [⟨S16x1024x512, X0⟩, ⟨S16x1024x512, X1⟩, ⟨S16x1024x512, X2⟩, ⟨S16x1024x512, X3⟩] h y 1 (by show 1 < 4; omega) S16x1024x512 X1 rfl rfl 512 rfl (ix3 b a d) hi
      (by show 512 + d.val = (y 2).val; omega)
  · exact concatenate_apply_piece (t := S16x1024x2048) (2 : Fin 3) [⟨S16x1024x512, X0⟩, ⟨S16x1024x512, X1⟩, ⟨S16x1024x512, X2⟩, ⟨S16x1024x512, X3⟩] h y 2 (by show 2 < 4; omega) S16x1024x512 X2 rfl rfl 1024 rfl (ix3 b a d) hi
      (by show 1024 + d.val = (y 2).val; omega)
  · exact concatenate_apply_piece (t := S16x1024x2048) (2 : Fin 3) [⟨S16x1024x512, X0⟩, ⟨S16x1024x512, X1⟩, ⟨S16x1024x512, X2⟩, ⟨S16x1024x512, X3⟩] h y 3 (by show 3 < 4; omega) S16x1024x512 X3 rfl rfl 1536 rfl (ix3 b a d) hi
      (by show 1536 + d.val = (y 2).val; omega)

/-- THE FIRST RESULT is the output array of A against B, the weights normalised before contracting. -/
theorem v27_eq : val_main_v27 (F := Ideal) A B = outArr mixR A B := by
  funext y
  have hy0 : (y 0).val < 16 := (y 0).isLt
  have hy1 : (y 1).val < 1024 := (y 1).isLt
  have hy2 : (y 2).val < 2048 := (y 2).isLt
  obtain ⟨n, d, hn, h2⟩ : ∃ (n : ℕ) (d : Fin 512), n < 4 ∧ (y 2).val = 512 * n + d.val :=
    ⟨(y 2).val / 512, ⟨(y 2).val % 512, Nat.mod_lt _ (by norm_num)⟩, by omega, by show _ = 512 * _ + _ % 512; omega⟩
  rw [outArr_apply mixR A B y ⟨(y 0).val, hy0⟩ ⟨(y 1).val, hy1⟩ ⟨(y 2).val, hy2⟩ rfl rfl rfl,
    outRow_band mixR _ _ n d ⟨(y 2).val, hy2⟩ h2]
  obtain ⟨c0, c1, c2, c3⟩ := concat4_apply A (val_main_v23 (F := Ideal) A B) (val_main_v25 (F := Ideal) A B)
    (val_main_v26 (F := Ideal) A B)
    concatenates_S16x1024x512_S16x1024x512_S16x1024x512_S16x1024x512_S16x1024x2048_d2
    ⟨(y 0).val, hy0⟩ ⟨(y 1).val, hy1⟩ d y rfl rfl
  unfold val_main_v27
  interval_cases n
  · rw [c0 h2, band_zero]
  · rw [c1 h2, band_one, v23_apply]; rfl
  · rw [c2 h2, band_two, val_main_v25_apply, v23_apply]; rfl
  · rw [c3 h2, band_three, val_main_v26_apply, v23_apply]; rfl

/-- THE SECOND RESULT is the output array of B against A, the weights normalised before contracting. -/
theorem v30_eq : val_main_v30 (F := Ideal) A B = outArr mixR B A := by
  funext y
  have hy0 : (y 0).val < 16 := (y 0).isLt
  have hy1 : (y 1).val < 1024 := (y 1).isLt
  have hy2 : (y 2).val < 2048 := (y 2).isLt
  obtain ⟨n, d, hn, h2⟩ : ∃ (n : ℕ) (d : Fin 512), n < 4 ∧ (y 2).val = 512 * n + d.val :=
    ⟨(y 2).val / 512, ⟨(y 2).val % 512, Nat.mod_lt _ (by norm_num)⟩, by omega, by show _ = 512 * _ + _ % 512; omega⟩
  rw [outArr_apply mixR B A y ⟨(y 0).val, hy0⟩ ⟨(y 1).val, hy1⟩ ⟨(y 2).val, hy2⟩ rfl rfl rfl,
    outRow_band mixR _ _ n d ⟨(y 2).val, hy2⟩ h2]
  obtain ⟨c0, c1, c2, c3⟩ := concat4_apply B (val_main_v24 (F := Ideal) A B) (val_main_v28 (F := Ideal) A B)
    (val_main_v29 (F := Ideal) A B)
    concatenates_S16x1024x512_S16x1024x512_S16x1024x512_S16x1024x512_S16x1024x2048_d2
    ⟨(y 0).val, hy0⟩ ⟨(y 1).val, hy1⟩ d y rfl rfl
  unfold val_main_v30
  interval_cases n
  · rw [c0 h2, band_zero]
  · rw [c1 h2, band_one, v24_apply]; rfl
  · rw [c2 h2, band_two, val_main_v28_apply, v24_apply]; rfl
  · rw [c3 h2, band_three, val_main_v29_apply, v24_apply]; rfl

end Cert.ReferenceIdeal.RefValue

end
-- ==== Proof.lean ====
/-
  Two-way softmax attention fused with its inputs: the kernel against the reference, on the extended reals.

  For arguments A and B (16 batches of 1024 rows of 512 features) both programs return two arrays of 2048 columns.
  Row (b, a) of the first is the row a of A, the mixed row t, A - t and A * t side by side, where t is the average of the
  rows of B (batch b) weighted by the softmax, along the rows of B, of the scores of row a of A against them; the
  second is the same with A and B exchanged (the softmax then runs along the rows of A).

  The kernel launches one body twice, on (A, B) and on (B, A). For each batch the body forms each chunk of 256 rows
  of scores, subtracts the row's maximum, exponentiates, contracts the exponentials with the key rows and only then
  divides by the row's total (Proof/ChunkOps.lean, Proof/KernelBlock0.lean, Proof/KernelBlock1.lean: the sixteen stores of a
  launch are one function of the two input blocks; Proof/KernelFinal0.lean, Proof/KernelFinal1.lean: the blocks fill the
  array; Proof/KernelRun.lean: the two results of the run). The reference normalises the exponentials by the total first
  and contracts afterwards (Proof/RefIsG.lean). Dividing a finite sum of reals by a nonzero real is dividing each term
  (Proof/AttnSpec.lean); the precondition makes every entry of A and B real (Proof/FiniteIn.lean), so the scores are
  real, their maxima are real, the exponentials are positive reals and the totals are nonzero reals: the two orders
  agree. At an infinite entry they can differ, which is where the precondition is used.

  The idealization rewrote no operation, so what it preserves is trivial; the kernel's two frames are the generated
  ones, and the reference's frame is its run with the results dropped.
-/
import proofs.«110507_j24867860643935_2_alg».proof.Defs
import proofs.«110507_j24867860643935_2_alg».proof.Proof.Gen.Kernel
import proofs.«110507_j24867860643935_2_alg».proof.Proof.Gen.Kernel.Skeleton
import proofs.«110507_j24867860643935_2_alg».proof.Proof.Gen.Kernel.Launch
import proofs.«110507_j24867860643935_2_alg».proof.Proof.Gen.Kernel.Points
import proofs.«110507_j24867860643935_2_alg».proof.Proof.Gen.Kernel.Frame
import proofs.«110507_j24867860643935_2_alg».proof.Proof.Gen.KernelIdeal
import proofs.«110507_j24867860643935_2_alg».proof.Proof.Gen.KernelIdeal.Skeleton
import proofs.«110507_j24867860643935_2_alg».proof.Proof.Gen.KernelIdeal.Launch
import proofs.«110507_j24867860643935_2_alg».proof.Proof.Gen.KernelIdeal.Points
import proofs.«110507_j24867860643935_2_alg».proof.Proof.Gen.KernelIdeal.Frame
import proofs.«110507_j24867860643935_2_alg».proof.Proof.Gen.ReferenceIdeal
import proofs.«110507_j24867860643935_2_alg».proof.Proof.Gen.Pre_finite_inputs
import proofs.«110507_j24867860643935_2_alg».proof.Proof.AttnSpec
import proofs.«110507_j24867860643935_2_alg».proof.Proof.FiniteIn
import proofs.«110507_j24867860643935_2_alg».proof.Proof.KernelRun
import proofs.«110507_j24867860643935_2_alg».proof.Proof.KernelFinal0
import proofs.«110507_j24867860643935_2_alg».proof.Proof.KernelFinal1
import proofs.«110507_j24867860643935_2_alg».proof.Proof.RefRun
import proofs.«110507_j24867860643935_2_alg».proof.Proof.RefRead
import proofs.«110507_j24867860643935_2_alg».proof.Proof.RefIsG
import Idealize.ShloMosaic.Adequacy
import Idealize.ShloMosaic.Init

noncomputable section

namespace Cert.Proof

open Idealize.ShloMosaic Idealize.ShloMosaic.TcCoe Idealize.SL.Sem Cert.AttnSpec

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.ValueP.run (F := Ideal) m ρ)

/-- The idealization rewrote nothing. -/
theorem preserves : Cert.preserves_Kernel_KernelIdeal := trivial

/-- Both programs end with outArr of (A, B) and of (B, A), the weights normalised before contracting: the reference
    by its own text, the kernel because on real arguments contracting first and dividing afterwards gives the same. -/
theorem algebraic : Cert.algebraic_KernelIdeal_ReferenceIdeal := by
  intro m ρ m' ρ' hpre hagree
  refine ⟨fun c => outArr mixR (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => outArr mixR (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Named.run_W2 (F := Ideal) m ρ)
    obtain ⟨h0, h1, ha0, ha1⟩ := h c
    obtain ⟨hA, hB⟩ := Cert.FiniteIn.reals_of_pre _ _ (hpre c)
    refine ⟨?_, ?_, ha0, ha1⟩
    · rw [h0, Cert.KernelIdeal.Named.W2_v0, Cert.KernelIdeal.Final0.final (Cert.KernelIdeal.Gen.V0 m ρ) c]
      exact outArr_mixK_eq_mixR _ _ hA hB
    · rw [h1, Cert.KernelIdeal.Named.W2_v1, Cert.KernelIdeal.Final1.final (Cert.KernelIdeal.Gen.V1 m ρ) c,
        Cert.KernelIdeal.Named.V1_arg0, Cert.KernelIdeal.Named.V1_arg1]
      exact outArr_mixK_eq_mixR _ _ hB hA
  · refine (θ_run Cert.ReferenceIdeal.defs _ _).mono (fun r h c => ?_)
      (Cert.ReferenceIdeal.ValueP.run (F := Ideal) m' ρ')
    obtain ⟨h27, h30, ha0, ha1⟩ := h c
    refine ⟨?_, ?_, ha0, ha1⟩
    · rw [h27, Cert.ReferenceIdeal.ReadP.val_main_v27_eq, Cert.ReferenceIdeal.RefValue.v27_eq, (hagree c).1, (hagree c).2]
    · rw [h30, Cert.ReferenceIdeal.ReadP.val_main_v30_eq, Cert.ReferenceIdeal.RefValue.v30_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
